-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S128x1 : Shape := ⟨2, ![128, 1]⟩
abbrev S128 : Shape := ⟨1, ![128]⟩
abbrev S128x1024 : Shape := ⟨2, ![128, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x16 .f32) (main_arg12 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S1x16 .f32 := Host.absf main_arg11
  let main_cst_20 : FVec F S_ .f32 := constant S_ .f32 0x7F800000#32
  let main_v55 : FVec F S1x16 .f32 := broadcastInDim S1x16 ![] bcast_S_S1x16 main_cst_20
  let main_v56 : IVec S1x16 1 := cmpf .olt main_v54 main_v55
  let main_c_21 : IVec S_ 1 := constantI S_ 1 1#1
  let main_v57 : IVec S_ 1 := (fun x v => Host.reduce IntOp.andi x v reducesTo_S1x16_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x64 .f32) (main_arg8 : FVec F S32 .f32) (main_arg9 : FVec F S16x32 .f32) (main_arg10 : FVec F S16 .f32) (main_arg11 : FVec F S1x16 .f32) (main_arg12 : FVec F S1 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S16x32 .f32 := Host.absf main_arg9
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_v48 main_v49 main_v50

def fn_part1 {F : FTy → Type} [FloatOps F] (main_arg4 : FVec F S128 .f32) (main_arg5 : FVec F S64x128 .f32) (main_arg6 : FVec F S64 .f32) (main_arg7 : FVec F S32x64 .f32) (main_arg8 : FVec F S32 .f32) (main_arg9 : FVec F S16x32 .f32) (main_arg10 : FVec F S16 .f32) (main_arg11 : FVec F S1x16 .f32) (main_arg12 : FVec F S1 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1048576x8 .f32) (main_arg1 : FVec F S128x1 .f32) (main_arg2 : FVec F S128 .f32) (main_arg3 : FVec F S128x1024 .f32) (main_arg4 : FVec F S128 .f32) (main_arg5 : FVec F S64x128 .f32) (main_arg6 : FVec F S64 .f32) (main_arg7 : FVec F S32x64 .f32) (main_arg8 : FVec F S32 .f32) (main_arg9 : FVec F S16x32 .f32) (main_arg10 : FVec F S16 .f32) (main_arg11 : FVec F S1x16 .f32) (main_arg12 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S128x1 .f32 := Host.absf main_arg1
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_arg9 main_arg10 main_arg11 main_arg12 main_v13 main_v16
-- ==== Kernel.lean ====
abbrev S1048576x8 : Shape := ⟨2, ![1048576, 8]⟩
abbrev S128x1 : Shape := ⟨2, ![128, 1]⟩
abbrev S128 : Shape := ⟨1, ![128]⟩
abbrev S128x1024 : Shape := ⟨2, ![128, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S8x1048576 : Shape := ⟨2, ![8, 1048576]⟩
abbrev S64x1 : Shape := ⟨2, ![64, 1]⟩
abbrev S32x1 : Shape := ⟨2, ![32, 1]⟩
abbrev S16x1 : Shape := ⟨2, ![16, 1]⟩
abbrev S1x1 : Shape := ⟨2, ![1, 1]⟩
abbrev S64x1x16384 : Shape := ⟨3, ![64, 1, 16384]⟩
abbrev S8x16384 : Shape := ⟨2, ![8, 16384]⟩
abbrev S1x1x16384 : Shape := ⟨3, ![1, 1, 16384]⟩
abbrev S1x16384 : Shape := ⟨2, ![1, 16384]⟩
abbrev S128x16384 : Shape := ⟨2, ![128, 16384]⟩
abbrev S1024x16384 : Shape := ⟨2, ![1024, 16384]⟩
abbrev S64x16384 : Shape := ⟨2, ![64, 16384]⟩
abbrev S32x16384 : Shape := ⟨2, ![32, 16384]⟩
abbrev S16x16384 : Shape := ⟨2, ![16, 16384]⟩
abbrev S1048576 : Shape := ⟨1, ![1048576]⟩
abbrev S1048576x1 : Shape := ⟨2, ![1048576, 1]⟩

abbrev nBuf : Space → Nat
  | .hbm => 24
  | .vmem => 16
  | .smem => 0
  | _ => 0

abbrev bufTy : (tb : Table) → Fin (tcTables nBuf tb) → BufTy
  | .hbm, ⟨0, _⟩ => ⟨S1048576x8, .f32⟩
  | .hbm, ⟨1, _⟩ => ⟨S128x1, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S1x16, .f32⟩
  | .hbm, ⟨12, _⟩ => ⟨S1, .f32⟩
  | .hbm, ⟨13, _⟩ => ⟨S8x1048576, .f32⟩
  | .hbm, ⟨14, _⟩ => ⟨S128x1024, .bf16⟩
  | .hbm, ⟨15, _⟩ => ⟨S128x1, .f32⟩
  | .hbm, ⟨16, _⟩ => ⟨S128x1, .f32⟩
  | .hbm, ⟨17, _⟩ => ⟨S64x1, .f32⟩
  | .hbm, ⟨18, _⟩ => ⟨S32x1, .f32⟩
  | .hbm, ⟨19, _⟩ => ⟨S16x1, .f32⟩
  | .hbm, ⟨20, _⟩ => ⟨S1x1, .f32⟩
  | .hbm, ⟨21, _⟩ => ⟨S64x1x16384, .f32⟩
  | .hbm, ⟨22, _⟩ => ⟨S1048576, .f32⟩
  | .hbm, ⟨23, _⟩ => ⟨S1048576x1, .f32⟩
  | .local _ .vmem, ⟨0, _⟩ => ⟨S8x16384, .f32⟩
  | .local _ .vmem, ⟨1, _⟩ => ⟨S8x16384, .f32⟩
  | .local _ .vmem, ⟨2, _⟩ => ⟨S128x1, .f32⟩
  | .local _ .vmem, ⟨3, _⟩ => ⟨S128x1, .f32⟩
  | .local _ .vmem, ⟨4, _⟩ => ⟨S128x1024, .bf16⟩
  | .local _ .vmem, ⟨5, _⟩ => ⟨S128x1, .f32⟩
  | .local _ .vmem, ⟨6, _⟩ => ⟨S64x128, .f32⟩
  | .local _ .vmem, ⟨7, _⟩ => ⟨S64x1, .f32⟩
  | .local _ .vmem, ⟨8, _⟩ => ⟨S32x64, .f32⟩
  | .local _ .vmem, ⟨9, _⟩ => ⟨S32x1, .f32⟩
  | .local _ .vmem, ⟨10, _⟩ => ⟨S16x32, .f32⟩
  | .local _ .vmem, ⟨11, _⟩ => ⟨S16x1, .f32⟩
  | .local _ .vmem, ⟨12, _⟩ => ⟨S1x16, .f32⟩
  | .local _ .vmem, ⟨13, _⟩ => ⟨S1x1, .f32⟩
  | .local _ .vmem, ⟨14, _⟩ => ⟨S1x1x16384, .f32⟩
  | .local _ .vmem, ⟨15, _⟩ => ⟨S1x1x16384, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x16384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S1048576x8_S8x1048576_1_0 : S1048576x8.Transposes [1, 0] S8x1048576
  bitsLt_bf16_f32 : FTy.bits .bf16 < FTy.bits .f32
  shapeCasts_S128_S128x1 : S128.ShapeCasts S128x1
  shapeCasts_S64_S64x1 : S64.ShapeCasts S64x1
  shapeCasts_S32_S32x1 : S32.ShapeCasts S32x1
  shapeCasts_S16_S16x1 : S16.ShapeCasts S16x1
  shapeCasts_S1_S1x1 : S1.ShapeCasts S1x1
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  slices_S8x16384_o0_0_S1x16384 : S8x16384.Slices ![0, 0] S1x16384
  broadcasts_S128x1_S128x16384 : S128x1.Broadcasts S128x16384
  broadcasts_S1x16384_S128x16384 : S1x16384.Broadcasts S128x16384
  slices_S8x16384_o1_0_S1x16384 : S8x16384.Slices ![1, 0] S1x16384
  slices_S8x16384_o2_0_S1x16384 : S8x16384.Slices ![2, 0] S1x16384
  slices_S8x16384_o3_0_S1x16384 : S8x16384.Slices ![3, 0] S1x16384
  slices_S8x16384_o4_0_S1x16384 : S8x16384.Slices ![4, 0] S1x16384
  slices_S8x16384_o5_0_S1x16384 : S8x16384.Slices ![5, 0] S1x16384
  slices_S8x16384_o6_0_S1x16384 : S8x16384.Slices ![6, 0] S1x16384
  slices_S8x16384_o7_0_S1x16384 : S8x16384.Slices ![7, 0] S1x16384
  concatenates_S128x16384_S128x16384_S128x16384_S128x16384_S128x16384_S128x16384_S128x16384_S128x16384_S1024x16384_d0 : Shape.Concatenates [S128x16384, S128x16384, S128x16384, S128x16384, S128x16384, S128x16384, S128x16384, S128x16384] S1024x16384 0
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  inb_S1x16_S1x16_0_0 : ∀ a, (![0, 0] : Fin 2 → Nat) a + S1x16.size a ≤ S1x16.size a
  h_S1x16 : 0 < S1x16.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16384 : S1x1.Broadcasts S1x16384
  shapeCasts_S1x16384_S1x1x16384 : S1x16384.ShapeCasts S1x1x16384
  inb_S1x1x16384_S1x1x16384_0_0_0 : ∀ a, (![0, 0, 0] : Fin 3 → Nat) a + S1x1x16384.size a ≤ S1x1x16384.size a
  h_S1x1x16384 : 0 < S1x1x16384.numel
  shapeCasts_S64x1x16384_S1048576 : S64x1x16384.ShapeCasts S1048576
  shapeCasts_S1048576_S1048576x1 : S1048576.ShapeCasts S1048576x1
  dot_S128x1024_S1024x16384_S128x16384_1_0_0_1_n_n_wf : DotDims.WF S128x1024 S1024x16384 S128x16384 [1] [0] [0] [1] [] []
  dot_S64x128_S128x16384_S64x16384_1_0_0_1_n_n_wf : DotDims.WF S64x128 S128x16384 S64x16384 [1] [0] [0] [1] [] []
  dot_S32x64_S64x16384_S32x16384_1_0_0_1_n_n_wf : DotDims.WF S32x64 S64x16384 S32x16384 [1] [0] [0] [1] [] []
  dot_S16x32_S32x16384_S16x16384_1_0_0_1_n_n_wf : DotDims.WF S16x32 S32x16384 S16x16384 [1] [0] [0] [1] [] []
  dot_S1x16_S16x16384_S1x16384_1_0_0_1_n_n_wf : DotDims.WF S1x16 S16x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S8x1048576.size a
  hwx0_0 : ∀ i : grid0.Coords, EltTy.bits .f32 = 32 ∨ (Rect.block (s := S8x1048576) S8x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .bf16 = 32 ∨ (Rect.block (s := S128x1024) S128x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .f32 = 32 ∨ (Rect.block (s := S16x32) S16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x16384.size a ≤ S64x1x16384.size a
  hwx0_13 : ∀ i : grid0.Coords, EltTy.bits .f32 = 32 ∨ (Rect.block (s := S64x1x16384) S1x1x16384.size (cc0_transform_13 i) (hinb0_13 i)).WholeWords (EltTy.packing .f32)

variable [Facts₀]

def dot_S128x1024_S1024x16384_S128x16384_1_0_0_1_n_n : DotDims S128x1024 S1024x16384 S128x16384 where
  lhsContracting := [1]
  rhsContracting := [0]
  lhsNonContracting := [0]
  rhsNonContracting := [1]
  lhsBatch := []
  rhsBatch := []
  wf := dot_S128x1024_S1024x16384_S128x16384_1_0_0_1_n_n_wf
def dot_S64x128_S128x16384_S64x16384_1_0_0_1_n_n : DotDims S64x128 S128x16384 S64x16384 where
  lhsContracting := [1]
  rhsContracting := [0]
  lhsNonContracting := [0]
  rhsNonContracting := [1]
  lhsBatch := []
  rhsBatch := []
  wf := dot_S64x128_S128x16384_S64x16384_1_0_0_1_n_n_wf
def dot_S32x64_S64x16384_S32x16384_1_0_0_1_n_n : DotDims S32x64 S64x16384 S32x16384 where
  lhsContracting := [1]
  rhsContracting := [0]
  lhsNonContracting := [0]
  rhsNonContracting := [1]
  lhsBatch := []
  rhsBatch := []
  wf := dot_S32x64_S64x16384_S32x16384_1_0_0_1_n_n_wf
def dot_S16x32_S32x16384_S16x16384_1_0_0_1_n_n : DotDims S16x32 S32x16384 S16x16384 where
  lhsContracting := [1]
  rhsContracting := [0]
  lhsNonContracting := [0]
  rhsNonContracting := [1]
  lhsBatch := []
  rhsBatch := []
  wf := dot_S16x32_S32x16384_S16x16384_1_0_0_1_n_n_wf
def dot_S1x16_S16x16384_S1x16384_1_0_0_1_n_n : DotDims S1x16 S16x16384 S1x16384 where
  lhsContracting := [1]
  rhsContracting := [0]
  lhsNonContracting := [0]
  rhsNonContracting := [1]
  lhsBatch := []
  rhsBatch := []
  wf := dot_S1x16_S16x16384_S1x16384_1_0_0_1_n_n_wf

abbrev win0_0 : Pipeline.Window sig grid0 :=
  Pipeline.Window.ofSpec (Memref.whole main_v0) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x1x16384.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S128x1 : Shape := ⟨2, ![128, 1]⟩
abbrev S128 : Shape := ⟨1, ![128]⟩
abbrev S128x1024 : Shape := ⟨2, ![128, 1024]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S8x8 : Shape := ⟨2, ![8, 8]⟩
abbrev S_ : Shape := ⟨0, ![]⟩
abbrev S8x1x8x1 : Shape := ⟨4, ![8, 1, 8, 1]⟩
abbrev S1x128x1x1 : Shape := ⟨4, ![1, 128, 1, 1]⟩
abbrev S8x128x8x1 : Shape := ⟨4, ![8, 128, 8, 1]⟩
abbrev S1024x8 : Shape := ⟨2, ![1024, 8]⟩
abbrev S8x128x1x1 : Shape := ⟨4, ![8, 128, 1, 1]⟩
abbrev S1024x1 : Shape := ⟨2, ![1024, 1]⟩
abbrev S8x1048576 : Shape := ⟨2, ![8, 1048576]⟩
abbrev S64x1 : Shape := ⟨2, ![64, 1]⟩
abbrev S32x1 : Shape := ⟨2, ![32, 1]⟩
abbrev S16x1 : Shape := ⟨2, ![16, 1]⟩
abbrev S1x1 : Shape := ⟨2, ![1, 1]⟩
abbrev S1x1048576 : Shape := ⟨2, ![1, 1048576]⟩
abbrev S8x4096 : Shape := ⟨2, ![8, 4096]⟩
abbrev S1x4096 : Shape := ⟨2, ![1, 4096]⟩
abbrev S1024x4096 : Shape := ⟨2, ![1024, 4096]⟩
abbrev S128x4096 : Shape := ⟨2, ![128, 4096]⟩
abbrev S64x4096 : Shape := ⟨2, ![64, 4096]⟩
abbrev S32x4096 : Shape := ⟨2, ![32, 4096]⟩
abbrev S16x4096 : Shape := ⟨2, ![16, 4096]⟩
abbrev S1048576 : Shape := ⟨1, ![1048576]⟩
abbrev S1048576x1 : Shape := ⟨2, ![1048576, 1]⟩

abbrev nBuf : Space → Nat
  | .hbm => 39
  | .vmem => 16
  | .smem => 0
  | _ => 0

abbrev bufTy : (tb : Table) → Fin (tcTables nBuf tb) → BufTy
  | .hbm, ⟨0, _⟩ => ⟨S1048576x8, .f32⟩
  | .hbm, ⟨1, _⟩ => ⟨S128x1, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S1x16, .f32⟩
  | .hbm, ⟨12, _⟩ => ⟨S1, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S8x1x8x1, .f32⟩
  | .hbm, ⟨21, _⟩ => ⟨S1x128x1x1, .f32⟩
  | .hbm, ⟨22, _⟩ => ⟨S8x128x8x1, .f32⟩
  | .hbm, ⟨23, _⟩ => ⟨S8x128x8x1, .f32⟩
  | .hbm, ⟨24, _⟩ => ⟨S8x128x8x1, .f32⟩
  | .hbm, ⟨25, _⟩ => ⟨S1024x8, .f32⟩
  | .hbm, ⟨26, _⟩ => ⟨S128x1, .f32⟩
  | .hbm, ⟨27, _⟩ => ⟨S1x128x1x1, .f32⟩
  | .hbm, ⟨28, _⟩ => ⟨S8x128x1x1, .f32⟩
  | .hbm, ⟨29, _⟩ => ⟨S1024x1, .f32⟩
  | .hbm, ⟨30, _⟩ => ⟨S8x1048576, .f32⟩
  | .hbm, ⟨31, _⟩ => ⟨S128x1, .f32⟩
  | .hbm, ⟨32, _⟩ => ⟨S64x1, .f32⟩
  | .hbm, ⟨33, _⟩ => ⟨S32x1, .f32⟩
  | .hbm, ⟨34, _⟩ => ⟨S16x1, .f32⟩
  | .hbm, ⟨35, _⟩ => ⟨S1x1, .f32⟩
  | .hbm, ⟨36, _⟩ => ⟨S1x1048576, .f32⟩
  | .hbm, ⟨37, _⟩ => ⟨S1048576, .f32⟩
  | .hbm, ⟨38, _⟩ => ⟨S1048576x1, .f32⟩
  | .local _ .vmem, ⟨0, _⟩ => ⟨S8x4096, .f32⟩
  | .local _ .vmem, ⟨1, _⟩ => ⟨S8x4096, .f32⟩
  | .local _ .vmem, ⟨2, _⟩ => ⟨S1024x8, .f32⟩
  | .local _ .vmem, ⟨3, _⟩ => ⟨S1024x1, .f32⟩
  | .local _ .vmem, ⟨4, _⟩ => ⟨S128x1024, .f32⟩
  | .local _ .vmem, ⟨5, _⟩ => ⟨S128x1, .f32⟩
  | .local _ .vmem, ⟨6, _⟩ => ⟨S64x128, .f32⟩
  | .local _ .vmem, ⟨7, _⟩ => ⟨S64x1, .f32⟩
  | .local _ .vmem, ⟨8, _⟩ => ⟨S32x64, .f32⟩
  | .local _ .vmem, ⟨9, _⟩ => ⟨S32x1, .f32⟩
  | .local _ .vmem, ⟨10, _⟩ => ⟨S16x32, .f32⟩
  | .local _ .vmem, ⟨11, _⟩ => ⟨S16x1, .f32⟩
  | .local _ .vmem, ⟨12, _⟩ => ⟨S1x16, .f32⟩
  | .local _ .vmem, ⟨13, _⟩ => ⟨S1x1, .f32⟩
  | .local _ .vmem, ⟨14, _⟩ => ⟨S1x4096, .f32⟩
  | .local _ .vmem, ⟨15, _⟩ => ⟨S1x4096, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x1_S1x128x1x1_1_3 : S128x1.BroadcastsInDim S1x128x1x1 (![1, 3] : Fin 2 → Fin S1x128x1x1.rank)
  bcast_S8x1x8x1_S8x128x8x1_0_1_2_3 : S8x1x8x1.BroadcastsInDim S8x128x8x1 (![0, 1, 2, 3] : Fin 4 → Fin S8x128x8x1.rank)
  bcast_S1x128x1x1_S8x128x8x1_0_1_2_3 : S1x128x1x1.BroadcastsInDim S8x128x8x1 (![0, 1, 2, 3] : Fin 4 → Fin S8x128x8x1.rank)
  shapeCasts_S8x128x8x1_S1024x8 : S8x128x8x1.ShapeCasts S1024x8
  shapeCasts_S128_S128x1 : S128.ShapeCasts S128x1
  shapeCasts_S128x1_S1x128x1x1 : S128x1.ShapeCasts S1x128x1x1
  bcast_S1x128x1x1_S8x128x1x1_0_1_2_3 : S1x128x1x1.BroadcastsInDim S8x128x1x1 (![0, 1, 2, 3] : Fin 4 → Fin S8x128x1x1.rank)
  shapeCasts_S8x128x1x1_S1024x1 : S8x128x1x1.ShapeCasts S1024x1
  transposes_S1048576x8_S8x1048576_1_0 : S1048576x8.Transposes [1, 0] S8x1048576
  shapeCasts_S64_S64x1 : S64.ShapeCasts S64x1
  shapeCasts_S32_S32x1 : S32.ShapeCasts S32x1
  shapeCasts_S16_S16x1 : S16.ShapeCasts S16x1
  shapeCasts_S1_S1x1 : S1.ShapeCasts S1x1
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  inb_S128x1024_S128x1024_0_0 : ∀ a, (![0, 0] : Fin 2 → Nat) a + S128x1024.size a ≤ S128x1024.size a
  h_S128x1024 : 0 < S128x1024.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x4096 : S16x1.Broadcasts S16x4096
  inb_S1x16_S1x16_0_0 : ∀ a, (![0, 0] : Fin 2 → Nat) a + S1x16.size a ≤ S1x16.size a
  h_S1x16 : 0 < S1x16.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  shapeCasts_S1x1048576_S1048576 : S1x1048576.ShapeCasts S1048576
  shapeCasts_S1048576_S1048576x1 : S1048576.ShapeCasts S1048576x1
  dot_S1024x8_S8x4096_S1024x4096_1_0_0_1_n_n_wf : DotDims.WF S1024x8 S8x4096 S1024x4096 [1] [0] [0] [1] [] []
  dot_S128x1024_S1024x4096_S128x4096_1_0_0_1_n_n_wf : DotDims.WF S128x1024 S1024x4096 S128x4096 [1] [0] [0] [1] [] []
  dot_S64x128_S128x4096_S64x4096_1_0_0_1_n_n_wf : DotDims.WF S64x128 S128x4096 S64x4096 [1] [0] [0] [1] [] []
  dot_S32x64_S64x4096_S32x4096_1_0_0_1_n_n_wf : DotDims.WF S32x64 S64x4096 S32x4096 [1] [0] [0] [1] [] []
  dot_S16x32_S32x4096_S16x4096_1_0_0_1_n_n_wf : DotDims.WF S16x32 S32x4096 S16x4096 [1] [0] [0] [1] [] []
  dot_S1x16_S16x4096_S1x4096_1_0_0_1_n_n_wf : DotDims.WF S1x16 S16x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x1048576.size a
  hwx0_0 : ∀ i : grid0.Coords, EltTy.bits .f32 = 32 ∨ (Rect.block (s := S8x1048576) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .f32 = 32 ∨ (Rect.block (s := S1024x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .f32 = 32 ∨ (Rect.block (s := S16x32) S16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x4096.size a ≤ S1x1048576.size a
  hwx0_13 : ∀ i : grid0.Coords, EltTy.bits .f32 = 32 ∨ (Rect.block (s := S1x1048576) S1x4096.size (cc0_transform_13 i) (hinb0_13 i)).WholeWords (EltTy.packing .f32)

variable [Facts₀]

def dot_S1024x8_S8x4096_S1024x4096_1_0_0_1_n_n : DotDims S1024x8 S8x4096 S1024x4096 where
  lhsContracting := [1]
  rhsContracting := [0]
  lhsNonContracting := [0]
  rhsNonContracting := [1]
  lhsBatch := []
  rhsBatch := []
  wf := dot_S1024x8_S8x4096_S1024x4096_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S32x64_S64x4096_S32x4096_1_0_0_1_n_n : DotDims S32x64 S64x4096 S32x4096 where
  lhsContracting := [1]
  rhsContracting := [0]
  lhsNonContracting := [0]
  rhsNonContracting := [1]
  lhsBatch := []
  rhsBatch := []
  wf := dot_S32x64_S64x4096_S32x4096_1_0_0_1_n_n_wf
def dot_S16x32_S32x4096_S16x4096_1_0_0_1_n_n : DotDims S16x32 S32x4096 S16x4096 where
  lhsContracting := [1]
  rhsContracting := [0]
  lhsNonContracting := [0]
  rhsNonContracting := [1]
  lhsBatch := []
  rhsBatch := []
  wf := dot_S16x32_S32x4096_S16x4096_1_0_0_1_n_n_wf
def dot_S1x16_S16x4096_S1x4096_1_0_0_1_n_n : DotDims S1x16 S16x4096 S1x4096 where
  lhsContracting := [1]
  rhsContracting := [0]
  lhsNonContracting := [0]
  rhsNonContracting := [1]
  lhsBatch := []
  rhsBatch := []
  wf := dot_S1x16_S16x4096_S1x4096_1_0_0_1_n_n_wf

abbrev win0_0 : Pipeline.Window sig grid0 :=
  Pipeline.Window.ofSpec (Memref.whole main_v11) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibDenseColumn.lean ====
/-
  One column of a dense layer at the ideal values.
  For an M×K weight matrix W, a K×N activation matrix Y and an [M, 1] bias column b, column j of  W·Y + b  (the product
  into a zero accumulator, the bias repeated along the N columns) is the affine map  v ↦ W v + b  of column j of Y; and
  column j of the entrywise maximum with the zero splat is the positive part of column j. So a stack of such layers, read at
  one column, is the composition of the column maps: the batch column never mixes with its neighbours.
-/
import Idealize.ShloMosaic.PureOps.Ideal.Laws
import Idealize.ShloMosaic.Lib.ValueIdx
import Idealize.ShloMosaic.Lib.Pipeline.Value
import proofs.«161506_g2000504593560428_pallasbulk_1050_27_alg».proof.Proof.LibPlainDot
import proofs.«161506_g2000504593560428_pallasbulk_1050_27_alg».proof.Proof.LibColumn

noncomputable section

namespace Cert.LibDenseColumn

open Idealize.ShloMosaic Idealize.ShloMosaic.ValueIdx

/-- The affine map of a column: `(W v + β) i = Σ k, W i k · v k + β i`. -/
def dense {a b : ℕ} (W : Fin a → Fin b → EReal) (β : Fin a → EReal) (v : Fin b → EReal) : Fin a → EReal :=
  fun i => (∑ k : Fin b, W i k * v k) + β i

/-- The positive part of a column, entry by entry. -/
def relu {a : ℕ} (v : Fin a → EReal) : Fin a → EReal := fun i => max (v i) 0

/-- Column `j` of a K×N matrix. -/
def col {K N : ℕ} (Y : (⟨2, ![K, N]⟩ : Shape).Idx → EReal) (j : Fin N) : Fin K → EReal := fun k => Y (ix2 k j)

/-- An M×K matrix by rows and columns. -/
def mat {M K : ℕ} (W : (⟨2, ![M, K]⟩ : Shape).Idx → EReal) : Fin M → Fin K → EReal := fun i k => W (ix2 i k)

/-- An [M, 1] column as a vector. -/
def colvec {M : ℕ} (b : (⟨2, ![M, 1]⟩ : Shape).Idx → EReal) : Fin M → EReal := fun i => b (ix2 i (0 : Fin 1))

/-- The zero word of the 16-bit format is zero. -/
theorem ofBits_zero_bf16 : Ideal.ofBits .bf16 0x0000#16 = 0 := by simp [Ideal.ofBits, Ideal.ieee]

/-- Column `j` of `W·Y + b` is the affine map of column `j` of `Y`. -/
theorem col_affine {M K N : ℕ} {φ₁ φ₂ : FTy} (D : DotDims ⟨2, ![M, K]⟩ ⟨2, ![K, N]⟩ ⟨2, ![M, N]⟩) (hD : D = DotDims.plain M K N)
    (prec : Option ContractPrecision) (W : FVec Ideal ⟨2, ![M, K]⟩ φ₁) (Y : FVec Ideal ⟨2, ![K, N]⟩ φ₂)
    (b : FVec Ideal ⟨2, ![M, 1]⟩ .f32) (hs : (⟨2, ![M, 1]⟩ : Shape).ShapeCasts ⟨2, ![M, 1]⟩)
    (hb : (⟨2, ![M, 1]⟩ : Shape).Broadcasts ⟨2, ![M, N]⟩) (j : Fin N) :
    col (addf (matmul (F := Ideal) D prec W Y (constant ⟨2, ![M, N]⟩ .f32 0x00000000#32))
        (broadcastTo ⟨2, ![M, N]⟩ (shapeCast ⟨2, ![M, 1]⟩ b hs) hb)) j
      = dense (mat W) (colvec b) (col Y j) := by
  subst hD
  funext i
  show addf _ _ (ix2 i j) = _
  rw [addf_apply, LibPlainDot.matmul_plain, LibColumn.broadcastTo_a1_ab_apply, shapeCast_self]
  rfl

/-- Column `j` of the entrywise maximum with the zero splat is the positive part of column `j`. -/
theorem col_relu {K N : ℕ} (Y : FVec Ideal ⟨2, ![K, N]⟩ .f32) (j : Fin N) :
    col (maximumf Y (broadcast ⟨2, ![K, N]⟩ (Scalar.ofBits (F := Ideal) .f32 0x00000000#32))) j = relu (col Y j) := by
  funext k
  show max (Y (ix2 k j)) (Ideal.ofBits .f32 0x00000000#32) = max (Y (ix2 k j)) 0
  rw [Ideal.ofBits_zero_f32]

end Cert.LibDenseColumn

end
-- ==== Proof.Mlp.lean ====
/-
  The network both programs compute, for one batch element.
  The input is a batch of rows of 8 features. The first layer applies ONE scalar affine map per hidden unit to EACH feature
  separately: unit h of feature k is  max (w1 h · x k + b1 h) 0, placed at position k·128 + h of a 1024-vector. Four dense
  layers with positive parts follow (1024 → 128 → 64 → 32 → 16) and a last dense layer without (16 → 1).
  The whole-array result: row i of the [1048576, 1] output is the network at row i of the input.
-/
import proofs.«161506_g2000504593560428_pallasbulk_1050_27_alg».proof.Proof.LibDenseColumn

noncomputable section

namespace Cert.Mlp

open Idealize.ShloMosaic Idealize.ShloMosaic.ValueIdx Cert.LibDenseColumn

/-- The first layer: position `r = k·128 + h` holds `max (w1 h · x k + b1 h) 0`. -/
def lift1 (w1 b1 : Fin 128 → EReal) (x : Fin 8 → EReal) : Fin 1024 → EReal :=
  fun r => max (w1 ⟨r.val % 128, Nat.mod_lt _ (by norm_num)⟩ * x ⟨r.val / 128, by have := r.isLt; omega⟩
    + b1 ⟨r.val % 128, Nat.mod_lt _ (by norm_num)⟩) 0

/-- The layers after the first, from the first layer's 1024-vector. -/
def tail (W2 : Fin 128 → Fin 1024 → EReal) (b2 : Fin 128 → EReal)
    (W25 : Fin 64 → Fin 128 → EReal) (b25 : Fin 64 → EReal) (W3 : Fin 32 → Fin 64 → EReal) (b3 : Fin 32 → EReal)
    (W4 : Fin 16 → Fin 32 → EReal) (b4 : Fin 16 → EReal) (W5 : Fin 1 → Fin 16 → EReal) (b5 : Fin 1 → EReal)
    (h1 : Fin 1024 → EReal) : EReal :=
  dense W5 b5 (relu (dense W4 b4 (relu (dense W3 b3 (relu (dense W25 b25 (relu (dense W2 b2 h1)))))))) 0

/-- The network at one batch element `x`. -/
def net (w1 b1 : Fin 128 → EReal) (W2 : Fin 128 → Fin 1024 → EReal) (b2 : Fin 128 → EReal)
    (W25 : Fin 64 → Fin 128 → EReal) (b25 : Fin 64 → EReal) (W3 : Fin 32 → Fin 64 → EReal) (b3 : Fin 32 → EReal)
    (W4 : Fin 16 → Fin 32 → EReal) (b4 : Fin 16 → EReal) (W5 : Fin 1 → Fin 16 → EReal) (b5 : Fin 1 → EReal)
    (x : Fin 8 → EReal) : EReal :=
  tail W2 b2 W25 b25 W3 b3 W4 b4 W5 b5 (lift1 w1 b1 x)

/-- The law joining the two programs. A first dense layer whose [1024, 8] matrix is the Kronecker product of the 8×8 identity
    with the column `w1` — entry `(k·128 + h, k')` is `w1 h` when `k' = k` and zero otherwise — and whose bias repeats `b1`
    eight times is, after the positive part, the per-feature first layer: in row `r = k·128 + h` of the product every term
    but the one at `k' = k` is `0 · x k' = 0` (on the extended reals too), and that term is `w1 h · x k`. -/
theorem lift1_of_kron (w1 b1 : Fin 128 → EReal) (W : Fin 1024 → Fin 8 → EReal) (β : Fin 1024 → EReal)
    (hW : ∀ (r : Fin 1024) (k : Fin 8),
      W r k = (if r.val / 128 = k.val then (1 : EReal) else 0) * w1 ⟨r.val % 128, Nat.mod_lt _ (by norm_num)⟩)
    (hβ : ∀ r : Fin 1024, β r = b1 ⟨r.val % 128, Nat.mod_lt _ (by norm_num)⟩) (x : Fin 8 → EReal) :
    relu (dense W β x) = lift1 w1 b1 x := by
  funext r
  show max ((∑ k : Fin 8, W r k * x k) + β r) 0 = _
  unfold lift1
  rw [hβ r, Finset.sum_eq_single (⟨r.val / 128, by have := r.isLt; omega⟩ : Fin 8)]
  · rw [hW, if_pos rfl, one_mul]
  · intro k _ hk
    rw [hW, if_neg (fun e => hk (Fin.ext e.symm)), zero_mul, zero_mul]
  · intro h
    exact absurd (Finset.mem_univ _) h

/-- A rank-1 array as a vector. -/
def vec {M : ℕ} (b : (⟨1, ![M]⟩ : Shape).Idx → EReal) : Fin M → EReal := fun i => b (ix1 i)

/-- Row `b` of the input. -/
def row (X : (⟨2, ![1048576, 8]⟩ : Shape).Idx → EReal) (b : Fin 1048576) : Fin 8 → EReal := fun k => X (ix2 b k)

/-- The result array as one function of the thirteen argument arrays. -/
def result (X : (⟨2, ![1048576, 8]⟩ : Shape).Idx → EReal) (A1 : (⟨2, ![128, 1]⟩ : Shape).Idx → EReal)
    (A2 : (⟨1, ![128]⟩ : Shape).Idx → EReal) (A3 : (⟨2, ![128, 1024]⟩ : Shape).Idx → EReal) (A4 : (⟨1, ![128]⟩ : Shape).Idx → EReal)
    (A5 : (⟨2, ![64, 128]⟩ : Shape).Idx → EReal) (A6 : (⟨1, ![64]⟩ : Shape).Idx → EReal)
    (A7 : (⟨2, ![32, 64]⟩ : Shape).Idx → EReal) (A8 : (⟨1, ![32]⟩ : Shape).Idx → EReal)
    (A9 : (⟨2, ![16, 32]⟩ : Shape).Idx → EReal) (A10 : (⟨1, ![16]⟩ : Shape).Idx → EReal)
    (A11 : (⟨2, ![1, 16]⟩ : Shape).Idx → EReal) (A12 : (⟨1, ![1]⟩ : Shape).Idx → EReal) :
    (⟨2, ![1048576, 1]⟩ : Shape).Idx → EReal :=
  fun i => net (colvec A1) (vec A2) (mat A3) (vec A4) (mat A5) (vec A6) (mat A7) (vec A8) (mat A9) (vec A10) (mat A11) (vec A12)
    (row X (i 0))

end Cert.Mlp

end
-- ==== Proof.KBody.lean ====
/-
  The kernel's body at one lane.
  The body holds an [8, N] block of the transposed input (N batch elements on the lanes). It builds the first layer as 8 slabs,
  slab k being  max (w1 · x_k + b1) 0  with the [128, 1] columns w1, b1 repeated along the lanes and row k of the block repeated
  along the 128 units, stacks the slabs into a [1024, N] matrix, and runs the dense layers on it. Read at lane j, every step
  only sees column j: the stored [1, 1, N] block at (0, 0, j) is the network at column j of the input block.
-/
import proofs.«161506_g2000504593560428_pallasbulk_1050_27_alg».proof.Proof.Gen.KernelIdeal.Frame
import proofs.«161506_g2000504593560428_pallasbulk_1050_27_alg».proof.Proof.Mlp
import Idealize.ShloMosaic.Lib.ValueLayout

noncomputable section

namespace Cert.KernelIdeal.Body

open Idealize.ShloMosaic Idealize.ShloMosaic.ValueIdx Cert.LibDenseColumn Cert.Mlp

/-- One slab at unit `h` and lane `j`: `max (w1 h · x k j + b1 h) 0`. -/
theorem slab_apply {N : ℕ} (k : ℕ) (hk : k < 8) (v0 : FVec Ideal ⟨2, ![8, N]⟩ .f32) (v2 v3 : FVec Ideal ⟨2, ![128, 1]⟩ .f32)
    (hs0 : (⟨2, ![8, N]⟩ : Shape).ShapeCasts ⟨2, ![8, N]⟩) (hsl : (⟨2, ![8, N]⟩ : Shape).Slices ![k, 0] ⟨2, ![1, N]⟩)
    (hb1 : (⟨2, ![128, 1]⟩ : Shape).Broadcasts ⟨2, ![128, N]⟩) (hb2 : (⟨2, ![1, N]⟩ : Shape).Broadcasts ⟨2, ![128, N]⟩)
    (hs3 : (⟨2, ![128, 1]⟩ : Shape).ShapeCasts ⟨2, ![128, 1]⟩) (hbits : FTy.bf16.bits < FTy.f32.bits) (h : Fin 128) (j : Fin N) :
    maximumf (truncf .bf16 (addf (mulf (broadcastTo ⟨2, ![128, N]⟩ v2 hb1)
        (broadcastTo ⟨2, ![128, N]⟩ (extractStridedSlice ⟨2, ![1, N]⟩ ![k, 0] (shapeCast ⟨2, ![8, N]⟩ v0 hs0) hsl) hb2))
        (broadcastTo ⟨2, ![128, N]⟩ (shapeCast ⟨2, ![128, 1]⟩ v3 hs3) hb1)) hbits)
      (broadcast ⟨2, ![128, N]⟩ (Scalar.ofBits (F := Ideal) .bf16 0x0000#16)) (ix2 h j)
    = max (v2 (ix2 h (0 : Fin 1)) * v0 (ix2 (⟨k, hk⟩ : Fin 8) j) + v3 (ix2 h (0 : Fin 1))) 0 := by
  rw [maximumf_apply, broadcast_apply, truncf_apply, addf_apply, mulf_apply, LibColumn.broadcastTo_a1_ab_apply,
    broadcastTo_1b_ab_apply, LibColumn.broadcastTo_a1_ab_apply, shapeCast_self, shapeCast_self,
    extractStridedSlice_apply _ _ _ _ (ix2 (⟨k, hk⟩ : Fin 8) j) (fun a => by
      match a with
      | ⟨0, _⟩ => show k = k + 0; rfl
      | ⟨1, _⟩ => show j.val = 0 + j.val; rw [Nat.zero_add])]
  show max _ (Ideal.ofBits .bf16 0x0000#16) = _
  rw [ofBits_zero_bf16]

/-- Eight [128, N] slabs stacked along the rows: row `r` of the stack is row `r % 128` of slab `r / 128`. -/
theorem stack8_apply {N : ℕ} (s0 s1 s2 s3 s4 s5 s6 s7 : FVec Ideal ⟨2, ![128, N]⟩ .bf16)
    (hc : Shape.Concatenates (([⟨⟨2, ![128, N]⟩, s0⟩, ⟨⟨2, ![128, N]⟩, s1⟩, ⟨⟨2, ![128, N]⟩, s2⟩, ⟨⟨2, ![128, N]⟩, s3⟩, ⟨⟨2, ![128, N]⟩, s4⟩, ⟨⟨2, ![128, N]⟩, s5⟩, ⟨⟨2, ![128, N]⟩, s6⟩, ⟨⟨2, ![128, N]⟩, s7⟩] : List ((s : Shape) × (s.Idx → Ideal .bf16))).map (·.1)) ⟨2, ![1024, N]⟩ 0)
    (g : Fin 8 → Fin 128 → EReal) (j : Fin N)
    (h0 : ∀ h, s0 (ix2 h j) = g 0 h) (h1 : ∀ h, s1 (ix2 h j) = g 1 h) (h2 : ∀ h, s2 (ix2 h j) = g 2 h)
    (h3 : ∀ h, s3 (ix2 h j) = g 3 h) (h4 : ∀ h, s4 (ix2 h j) = g 4 h) (h5 : ∀ h, s5 (ix2 h j) = g 5 h)
    (h6 : ∀ h, s6 (ix2 h j) = g 6 h) (h7 : ∀ h, s7 (ix2 h j) = g 7 h) (r : Fin 1024) :
    concatenate ⟨2, ![1024, N]⟩ 0 [⟨⟨2, ![128, N]⟩, s0⟩, ⟨⟨2, ![128, N]⟩, s1⟩, ⟨⟨2, ![128, N]⟩, s2⟩, ⟨⟨2, ![128, N]⟩, s3⟩, ⟨⟨2, ![128, N]⟩, s4⟩, ⟨⟨2, ![128, N]⟩, s5⟩, ⟨⟨2, ![128, N]⟩, s6⟩, ⟨⟨2, ![128, N]⟩, s7⟩] hc (ix2 r j)
      = g ⟨r.val / 128, by have := r.isLt; omega⟩ ⟨r.val % 128, Nat.mod_lt _ (by norm_num)⟩ := by
  have key := concatenate_ofFn_apply (t := ⟨2, ![1024, N]⟩) (s₁ := ⟨2, ![128, N]⟩) (0 : Fin 2)
    (![s0, s1, s2, s3, s4, s5, s6, s7] : Fin 8 → ((⟨2, ![128, N]⟩ : Shape).Idx → Ideal .bf16)) hc rfl 128 rfl (ix2 r j)
    (⟨r.val / 128, by have := r.isLt; omega⟩ : Fin 8) rfl (ix2 (⟨r.val % 128, Nat.mod_lt _ (by norm_num)⟩ : Fin 128) j) rfl
    (fun b hb => by
      match b with
      | ⟨0, _⟩ => exact absurd rfl hb
      | ⟨1, _⟩ => rfl)
  refine key.trans ?_
  have hall : ∀ (n : Fin 8) (h : Fin 128), (![s0, s1, s2, s3, s4, s5, s6, s7] : Fin 8 → _) n (ix2 h j) = g n h := by
    intro n h
    fin_cases n
    · exact h0 h
    · exact h1 h
    · exact h2 h
    · exact h3 h
    · exact h4 h
    · exact h5 h
    · exact h6 h
    · exact h7 h
  exact hall _ _

/-- A [1, N] row given two leading unit axes reads, at (0, 0, j), the row at (0, j). -/
theorem addUnit_row_apply {N : ℕ} {α : Type} (v : (⟨2, ![1, N]⟩ : Shape).Idx → α)
    (h : (⟨2, ![1, N]⟩ : Shape).ShapeCasts ⟨3, ![1, 1, N]⟩) (j : Fin N) :
    shapeCast ⟨3, ![1, 1, N]⟩ v h (ix3 (0 : Fin 1) (0 : Fin 1) j) = v (ix2 (0 : Fin 1) j) :=
  (shapeCast_addUnit_apply ![1, N] v h _).trans (congrArg v (funext fun a => by
    match a with
    | ⟨0, _⟩ => rfl
    | ⟨1, _⟩ => rfl))

theorem hz2 : (![0, 0] : Fin 2 → Nat) = fun _ => 0 := funext fun a => by fin_cases a <;> rfl
theorem hz3 : (![0, 0, 0] : Fin 3 → Nat) = fun _ => 0 := funext fun a => by fin_cases a <;> rfl

open Cert.KernelIdeal Cert.KernelIdeal.Gen

/-- What the body leaves in the output block, at lane `j`: the layers after the first applied to the first layer of
    column `j` of the input block, the weights and biases read off the loaded blocks. -/
theorem out_lane (x0 : Vec Ideal S8x16384 .f32) (x1 x2 : Vec Ideal S128x1 .f32) (x3 : Vec Ideal S128x1024 .bf16)
    (x4 : Vec Ideal S128x1 .f32) (x5 : Vec Ideal S64x128 .f32) (x6 : Vec Ideal S64x1 .f32) (x7 : Vec Ideal S32x64 .f32)
    (x8 : Vec Ideal S32x1 .f32) (x9 : Vec Ideal S16x32 .f32) (x10 : Vec Ideal S16x1 .f32) (x11 : Vec Ideal S1x16 .f32)
    (x12 : Vec Ideal S1x1 .f32) (j : Fin 16384) :
    out0_13 (F := Ideal) x0 x1 x2 x3 x4 x5 x6 x7 x8 x9 x10 x11 x12 (ix3 (0 : Fin 1) (0 : Fin 1) j)
      = tail (mat x3) (colvec x4) (mat x5) (colvec x6) (mat x7) (colvec x8) (mat x9) (colvec x10) (mat x11) (colvec x12)
          (lift1 (colvec x1) (colvec x2) (col x0 j)) := by
  unfold out0_13
  rw [View.canon_unit_zero hz3]
  simp only [View.ld_unit_zero (S := S8x16384) hz2, View.ld_unit_zero (S := S128x1) hz2, View.ld_unit_zero (S := S128x1024) hz2,
    View.ld_unit_zero (S := S64x128) hz2, View.ld_unit_zero (S := S64x1) hz2, View.ld_unit_zero (S := S32x64) hz2,
    View.ld_unit_zero (S := S32x1) hz2, View.ld_unit_zero (S := S16x32) hz2, View.ld_unit_zero (S := S16x1) hz2,
    View.ld_unit_zero (S := S1x16) hz2, View.ld_unit_zero (S := S1x1) hz2]
  unfold k0_pay1 k0_pay9 k0_pay8 k0_pay7 k0_pay6 k0_pay5 k0_pay4 k0_pay3 k0_pay2 tail
  refine (addUnit_row_apply _ _ j).trans ?_
  refine (congrFun (col_affine _ rfl none _ _ _ _ _ j) (0 : Fin 1)).trans ?_
  refine congrArg (fun v => dense (mat x11) (colvec x12) v (0 : Fin 1)) ?_
  refine (col_relu _ j).trans (congrArg relu ?_)
  refine (col_affine _ rfl none _ _ _ _ _ j).trans (congrArg (dense (mat x9) (colvec x10)) ?_)
  refine (col_relu _ j).trans (congrArg relu ?_)
  refine (col_affine _ rfl none _ _ _ _ _ j).trans (congrArg (dense (mat x7) (colvec x8)) ?_)
  refine (col_relu _ j).trans (congrArg relu ?_)
  refine (col_affine _ rfl none _ _ _ _ _ j).trans (congrArg (dense (mat x5) (colvec x6)) ?_)
  refine (col_relu _ j).trans (congrArg relu ?_)
  refine (col_affine _ rfl none _ _ _ _ _ j).trans ?_
  rw [shapeCast_self x3]
  refine congrArg (dense (mat x3) (colvec x4)) ?_
  funext r
  refine (stack8_apply _ _ _ _ _ _ _ _ _ (fun n h => max (x1 (ix2 h (0 : Fin 1)) * x0 (ix2 n j) + x2 (ix2 h (0 : Fin 1))) 0) j
    (fun h => slab_apply 0 (by norm_num) x0 x1 x2 _ _ _ _ _ _ h j) (fun h => slab_apply 1 (by norm_num) x0 x1 x2 _ _ _ _ _ _ h j)
    (fun h => slab_apply 2 (by norm_num) x0 x1 x2 _ _ _ _ _ _ h j) (fun h => slab_apply 3 (by norm_num) x0 x1 x2 _ _ _ _ _ _ h j)
    (fun h => slab_apply 4 (by norm_num) x0 x1 x2 _ _ _ _ _ _ h j) (fun h => slab_apply 5 (by norm_num) x0 x1 x2 _ _ _ _ _ _ h j)
    (fun h => slab_apply 6 (by norm_num) x0 x1 x2 _ _ _ _ _ _ h j) (fun h => slab_apply 7 (by norm_num) x0 x1 x2 _ _ _ _ _ _ h j) r).trans ?_
  rfl

end Cert.KernelIdeal.Body

end
-- ==== Proof.KValue.lean ====
/-
  The array the kernel's region writes.
  The region's grid has 64 points; point t holds columns 16384·t … 16384·t + 16383 of the transposed input (an [8, 16384] block)
  and every weight and bias array whole, and writes block t of the [64, 1, 16384] output. By the body's value at a lane, entry
  (t, 0, j) of the output is the network at column 16384·t + j of the transposed input. The 64 blocks tile the output, so the
  array after the run is that function everywhere.
-/
import proofs.«161506_g2000504593560428_pallasbulk_1050_27_alg».proof.Proof.KBody
import Idealize.ShloMosaic.Lib.Pipeline.Value

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.LibDenseColumn Cert.Mlp

variable (m : (ℓ : Loc nD τ sig) → Buf (Elt Ideal) ℓ) (ρ : Dev nD → PrngReg)

/-- Batch element `16384·p + q`. -/
def bidx (p : Fin 64) (q : Fin 16384) : Fin 1048576 := ⟨p.val * 16384 + q.val, by have := p.isLt; have := q.isLt; omega⟩

/-- The region's output array as one function of the arrays the region finds: entry (p, u, q) is the network at column
    `16384·p + q` of the transposed input. -/
def G13 (A0 : S8x1048576.Idx → EReal) (A1 A2 : S128x1.Idx → EReal) (A3 : S128x1024.Idx → EReal) (A4 : S128x1.Idx → EReal)
    (A5 : S64x128.Idx → EReal) (A6 : S64x1.Idx → EReal) (A7 : S32x64.Idx → EReal) (A8 : S32x1.Idx → EReal)
    (A9 : S16x32.Idx → EReal) (A10 : S16x1.Idx → EReal) (A11 : S1x16.Idx → EReal) (A12 : S1x1.Idx → EReal) :
    S64x1x16384.Idx → EReal :=
  fun i => tail (mat A3) (colvec A4) (mat A5) (colvec A6) (mat A7) (colvec A8) (mat A9) (colvec A10) (mat A11) (colvec A12)
    (lift1 (colvec A1) (colvec A2) (col A0 (bidx (i 0) (i 2))))

/-! ## The printed index maps, decided over the 64 points -/

theorem idx_0 : ∀ t : Fin cfg0.N, win0_0.index t (0 : Fin 2) = 0 ∧ win0_0.index t (1 : Fin 2) = t.val :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 3) = t.val ∧ win0_13.index t (1 : Fin 3) = 0 ∧ win0_13.index t (2 : Fin 3) = 0 :=
  (by decide +kernel : ∀ t : Fin grid0.N, _)

/-! ## Each input block is its array read where the point says -/

/-- The input block at point `t`: columns `16384·t …` of the transposed input. -/
theorem blk_0 (c : Dev nD) (t : Fin cfg0.N) (k : Fin 8) (j : Fin 16384) :
    (iblk m c 0 t : S8x16384.Idx → EReal) (ix2 k j) = V m c main_v0 (ix2 k (bidx (t.cast N_0) j)) := by
  obtain ⟨e0, e1⟩ := idx_0 t
  show V m c main_v0 (((cfg0.win 0).blk t).view.emb (ix2 k j)) = V m c main_v0 _
  refine congrArg _ (funext fun a => Fin.ext ?_)
  match a with
  | ⟨0, _⟩ => show win0_0.index t (0 : Fin 2) * 8 + 1 * k.val = k.val; rw [e0]; omega
  | ⟨1, _⟩ => show win0_0.index t (1 : Fin 2) * 16384 + 1 * j.val = t.val * 16384 + j.val; rw [e1]; omega

theorem blk_1 (c : Dev nD) (t : Fin cfg0.N) : (iblk m c 1 t : S128x1.Idx → EReal) = V m c main_arg1 := by
  obtain ⟨e0, e1⟩ := idx_1 t
  funext y
  show V m c main_arg1 (((cfg0.win 1).blk t).view.emb y) = V m c main_arg1 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 1 + 1 * (y 1).val = (y 1).val; rw [e1]; omega
theorem blk_2 (c : Dev nD) (t : Fin cfg0.N) : (iblk m c 2 t : S128x1.Idx → EReal) = V m c main_v2 := by
  obtain ⟨e0, e1⟩ := idx_2 t
  funext y
  show V m c main_v2 (((cfg0.win 2).blk t).view.emb y) = V m c main_v2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 1 + 1 * (y 1).val = (y 1).val; rw [e1]; omega
theorem blk_3 (c : Dev nD) (t : Fin cfg0.N) : (iblk m c 3 t : S128x1024.Idx → EReal) = V m c main_v1 := by
  obtain ⟨e0, e1⟩ := idx_3 t
  funext y
  show V m c main_v1 (((cfg0.win 3).blk t).view.emb y) = V m c main_v1 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 1024 + 1 * (y 1).val = (y 1).val; rw [e1]; omega
theorem blk_4 (c : Dev nD) (t : Fin cfg0.N) : (iblk m c 4 t : S128x1.Idx → EReal) = V m c main_v3 := by
  obtain ⟨e0, e1⟩ := idx_4 t
  funext y
  show V m c main_v3 (((cfg0.win 4).blk t).view.emb y) = V m c main_v3 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega
theorem blk_5 (c : Dev nD) (t : Fin cfg0.N) : (iblk m c 5 t : S64x128.Idx → EReal) = V m c main_arg5 := by
  obtain ⟨e0, e1⟩ := idx_5 t
  funext y
  show V m c main_arg5 (((cfg0.win 5).blk t).view.emb y) = V m c main_arg5 y
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 128 + 1 * (y 1).val = (y 1).val; rw [e1]; omega
theorem blk_6 (c : Dev nD) (t : Fin cfg0.N) : (iblk m c 6 t : S64x1.Idx → EReal) = V m c main_v4 := by
  obtain ⟨e0, e1⟩ := idx_6 t
  funext y
  show V m c main_v4 (((cfg0.win 6).blk t).view.emb y) = V m c main_v4 y
  refine congrArg _ (funext fun a => Fin.ext ?_)
  match a with
  | ⟨0, _⟩ => show win0_6.index t (0 : Fin 2) * 64 + 1 * (y 0).val = (y 0).val; rw [e0]; omega
  | ⟨1, _⟩ => show win0_6.index t (1 : Fin 2) * 1 + 1 * (y 1).val = (y 1).val; rw [e1]; omega
theorem blk_7 (c : Dev nD) (t : Fin cfg0.N) : (iblk m c 7 t : S32x64.Idx → EReal) = V m c main_arg7 := by
  obtain ⟨e0, e1⟩ := idx_7 t
  funext y
  show V m c main_arg7 (((cfg0.win 7).blk t).view.emb y) = V m c main_arg7 y
  refine congrArg _ (funext fun a => Fin.ext ?_)
  match a with
  | ⟨0, _⟩ => show win0_7.index t (0 : Fin 2) * 32 + 1 * (y 0).val = (y 0).val; rw [e0]; omega
  | ⟨1, _⟩ => show win0_7.index t (1 : Fin 2) * 64 + 1 * (y 1).val = (y 1).val; rw [e1]; omega
theorem blk_8 (c : Dev nD) (t : Fin cfg0.N) : (iblk m c 8 t : S32x1.Idx → EReal) = V m c main_v5 := by
  obtain ⟨e0, e1⟩ := idx_8 t
  funext y
  show V m c main_v5 (((cfg0.win 8).blk t).view.emb y) = V m c main_v5 y
  refine congrArg _ (funext fun a => Fin.ext ?_)
  match a with
  | ⟨0, _⟩ => show win0_8.index t (0 : Fin 2) * 32 + 1 * (y 0).val = (y 0).val; rw [e0]; omega
  | ⟨1, _⟩ => show win0_8.index t (1 : Fin 2) * 1 + 1 * (y 1).val = (y 1).val; rw [e1]; omega
theorem blk_9 (c : Dev nD) (t : Fin cfg0.N) : (iblk m c 9 t : S16x32.Idx → EReal) = V m c main_arg9 := by
  obtain ⟨e0, e1⟩ := idx_9 t
  funext y
  show V m c main_arg9 (((cfg0.win 9).blk t).view.emb y) = V m c main_arg9 y
  refine congrArg _ (funext fun a => Fin.ext ?_)
  match a with
  | ⟨0, _⟩ => show win0_9.index t (0 : Fin 2) * 16 + 1 * (y 0).val = (y 0).val; rw [e0]; omega
  | ⟨1, _⟩ => show win0_9.index t (1 : Fin 2) * 32 + 1 * (y 1).val = (y 1).val; rw [e1]; omega
theorem blk_10 (c : Dev nD) (t : Fin cfg0.N) : (iblk m c 10 t : S16x1.Idx → EReal) = V m c main_v6 := by
  obtain ⟨e0, e1⟩ := idx_10 t
  funext y
  show V m c main_v6 (((cfg0.win 10).blk t).view.emb y) = V m c main_v6 y
  refine congrArg _ (funext fun a => Fin.ext ?_)
  match a with
  | ⟨0, _⟩ => show win0_10.index t (0 : Fin 2) * 16 + 1 * (y 0).val = (y 0).val; rw [e0]; omega
  | ⟨1, _⟩ => show win0_10.index t (1 : Fin 2) * 1 + 1 * (y 1).val = (y 1).val; rw [e1]; omega
theorem blk_11 (c : Dev nD) (t : Fin cfg0.N) : (iblk m c 11 t : S1x16.Idx → EReal) = V m c main_arg11 := by
  obtain ⟨e0, e1⟩ := idx_11 t
  funext y
  show V m c main_arg11 (((cfg0.win 11).blk t).view.emb y) = V m c main_arg11 y
  refine congrArg _ (funext fun a => Fin.ext ?_)
  match a with
  | ⟨0, _⟩ => show win0_11.index t (0 : Fin 2) * 1 + 1 * (y 0).val = (y 0).val; rw [e0]; omega
  | ⟨1, _⟩ => show win0_11.index t (1 : Fin 2) * 16 + 1 * (y 1).val = (y 1).val; rw [e1]; omega
theorem blk_12 (c : Dev nD) (t : Fin cfg0.N) : (iblk m c 12 t : S1x1.Idx → EReal) = V m c main_v7 := by
  obtain ⟨e0, e1⟩ := idx_12 t
  funext y
  show V m c main_v7 (((cfg0.win 12).blk t).view.emb y) = V m c main_v7 y
  refine congrArg _ (funext fun a => Fin.ext ?_)
  match a with
  | ⟨0, _⟩ => show win0_12.index t (0 : Fin 2) * 1 + 1 * (y 0).val = (y 0).val; rw [e0]; omega
  | ⟨1, _⟩ => show win0_12.index t (1 : Fin 2) * 1 + 1 * (y 1).val = (y 1).val; rw [e1]; omega

/-- Where lane `j` of point `t`'s output block sits in the output array. -/
theorem emb_13 (t : Fin cfg0.N) (j : Fin 16384) :
    (((cfg0.win 13).blk t).view.emb (ix3 (0 : Fin 1) (0 : Fin 1) j) : S64x1x16384.Idx)
      = ix3 (t.cast N_0 : Fin 64) (0 : Fin 1) j := by
  obtain ⟨e0, e1, e2⟩ := idx_13 t
  refine funext fun a => Fin.ext ?_
  match a with
  | ⟨0, _⟩ => show win0_13.index t (0 : Fin 3) * 1 + 1 * 0 = t.val; rw [e0]; omega
  | ⟨1, _⟩ => show win0_13.index t (1 : Fin 3) * 1 + 1 * 0 = 0; rw [e1]
  | ⟨2, _⟩ => show win0_13.index t (2 : Fin 3) * 16384 + 1 * j.val = j.val; rw [e2]; omega

/-- Two functions on a [1, 1, 16384] block agree when they agree at every lane. -/
theorem lane_ext (f g : S1x1x16384.Idx → EReal) (h : ∀ j : Fin 16384, f (ix3 (0 : Fin 1) (0 : Fin 1) j) = g (ix3 (0 : Fin 1) (0 : Fin 1) j)) :
    f = g := by
  funext y
  have h0 : (y 0).val < 1 := (y 0).isLt
  have h1 : (y 1).val < 1 := (y 1).isLt
  have e : y = ix3 (0 : Fin 1) (0 : Fin 1) (y 2) := by
    funext a
    match a with
    | ⟨0, _⟩ => exact Fin.ext (by show (y 0).val = 0; omega)
    | ⟨1, _⟩ => exact Fin.ext (by show (y 1).val = 0; omega)
    | ⟨2, _⟩ => rfl
  rw [e]
  exact h _

/-- WHAT POINT `t` WRITES BACK is block `t` of `G13` of the arrays as the region finds them. -/
theorem flushed_eq (c : Dev nD) (t : Fin cfg0.N) :
    (dats m 0 c).flushed 13 t = ((cfg0.win 13).blk t).view.read (Elt Ideal) (G13 (V m c main_v0) (V m c main_arg1) (V m c main_v2) (V m c main_v1) (V m c main_v3) (V m c main_arg5) (V m c main_v4) (V m c main_arg7) (V m c main_v5) (V m c main_arg9) (V m c main_v6) (V m c main_arg11) (V m c main_v7)) := by
  show (cfg0.win 13).cut (grid0.coords t) ((dats m 0 c).after 13 t) = _
  rw [after0_13]
  refine lane_ext _ _ fun j => ?_
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) (0 : Fin 1) j)
    = G13 (V m c main_v0) (V m c main_arg1) (V m c main_v2) (V m c main_v1) (V m c main_v3) (V m c main_arg5) (V m c main_v4) (V m c main_arg7) (V m c main_v5) (V m c main_arg9) (V m c main_v6) (V m c main_arg11) (V m c main_v7) (((cfg0.win 13).blk t).view.emb (ix3 (0 : Fin 1) (0 : Fin 1) j))
  refine (Body.out_lane (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j).trans ?_
  rw [emb_13 t j, blk_1 m c t, blk_2 m c t, blk_3 m c t, blk_4 m c t, blk_5 m c t, blk_6 m c t, blk_7 m c t, blk_8 m c t, blk_9 m c t,
    blk_10 m c t, blk_11 m c t, blk_12 m c t]
  unfold G13
  refine congrArg (fun x => tail _ _ _ _ _ _ _ _ _ _ (lift1 _ _ x)) (funext fun k => ?_)
  exact blk_0 m c t k j

/-- An index of the output array is in point `t`'s block iff each coordinate is in the block's range on its axis. -/
theorem mem_blk13 (t : Fin cfg0.N) (i : S64x1x16384.Idx) :
    i ∈ ((cfg0.win 13).blk t).view.set ↔ ∀ a : Fin 3, win0_13.index t a * S1x1x16384.size a ≤ (i a).val ∧ (i a).val < win0_13.index t a * S1x1x16384.size a + S1x1x16384.size a := by
  show i ∈ ((View.whole main_v8).slice (win0_13.rect t)).set ↔ _
  rw [View.set_slice_whole, Rect.mem_set_unit]
  exact Iff.rfl

/-- Every index of the output array is in the block of the point its leading coordinate names. -/
theorem cover13 (i : S64x1x16384.Idx) : ∃ t : Fin cfg0.N, (cfg0.win 13).flush t = true ∧ i ∈ ((cfg0.win 13).blk t).view.set := by
  have h0 : (i 0).val < 64 := (i 0).isLt
  have h1 : (i 1).val < 1 := (i 1).isLt
  have h2 : (i 2).val < 16384 := (i 2).isLt
  have hN : cfg0.N = 64 := N_0
  refine ⟨⟨(i 0).val, by rw [hN]; exact h0⟩, flush0_13 _, ?_⟩
  rw [mem_blk13]
  obtain ⟨e0, e1, e2⟩ := idx_13 ⟨(i 0).val, by rw [hN]; exact h0⟩
  intro a
  match a with
  | ⟨0, _⟩ => show win0_13.index _ (0 : Fin 3) * 1 ≤ (i 0).val ∧ (i 0).val < win0_13.index _ (0 : Fin 3) * 1 + 1; rw [e0]; show (i 0).val * 1 ≤ (i 0).val ∧ (i 0).val < (i 0).val * 1 + 1; omega
  | ⟨1, _⟩ => show win0_13.index _ (1 : Fin 3) * 1 ≤ (i 1).val ∧ (i 1).val < win0_13.index _ (1 : Fin 3) * 1 + 1; rw [e1]; omega
  | ⟨2, _⟩ => show win0_13.index _ (2 : Fin 3) * 16384 ≤ (i 2).val ∧ (i 2).val < win0_13.index _ (2 : Fin 3) * 16384 + 16384; rw [e2]; omega

/-- THE ARRAY after the run is `G13` of the arrays as the region finds them. -/
theorem final13 (c : Dev nD) : (dats m 0 c).arrAt 13 cfg0.N = G13 (V m c main_v0) (V m c main_arg1) (V m c main_v2) (V m c main_v1) (V m c main_v3) (V m c main_arg5) (V m c main_v4) (V m c main_arg7) (V m c main_v5) (V m c main_arg9) (V m c main_v6) (V m c main_arg11) (V m c main_v7) :=
  (dats m 0 c).arrAt_eq_of_cover 13 _ (fun t _ => flushed_eq m c t) cover13

end Cert.KernelIdeal.Val

end
-- ==== Proof.KHost.lean ====
/-
  The kernel's program around its region, read as values.
  Before the region the host transposes the input (so the region's columns are the input's rows), narrows the second
  layer's weights (no change of value at the ideal instance) and makes each bias vector a column. After the region it
  flattens the [64, 1, 16384] output to [1048576] and gives it a trailing unit axis: entry (b, 0) of the result is entry
  (b / 16384, 0, b % 16384) of the region's output, the network at row b of the input.
-/
import proofs.«161506_g2000504593560428_pallasbulk_1050_27_alg».proof.Proof.KValue
import Idealize.ShloMosaic.Lib.StableHlo.Run

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen Cert.LibDenseColumn Cert.Mlp Cert.KernelIdeal.Val

variable (m : (ℓ : Loc nD τ sig) → Buf (Elt Ideal) ℓ) (ρ : Dev nD → PrngReg)

/-! ## What the region finds in the buffers the host wrote -/

/-- Column `b` of the transposed input is row `b` of the input. -/
theorem col_v0 (c : Dev nD) (b : Fin 1048576) : col (V m c main_v0) b = row (m ((c : Thread nD τ).loc main_arg0)) b := by
  have e : (V m c main_v0 : S8x1048576.Idx → EReal)
      = transpose S8x1048576 [1, 0] (m ((c : Thread nD τ).loc main_arg0)) transposes_S1048576x8_S8x1048576_1_0 := by
    show StableHlo.after hostOps0 (fun b => m (c, b)) (Proc.devRef .tc main_v0) = _
    after_results; all_goals rfl
  rw [e]
  funext k
  exact transpose_apply [1, 0] _ _ (ix2 k b) (ix2 b k) (fun a => by
    match a with
    | ⟨0, _⟩ => rfl
    | ⟨1, _⟩ => rfl)

/-- The narrowed second-layer weights are the weights. -/
theorem mat_v1 (c : Dev nD) : mat (V m c main_v1) = mat (m ((c : Thread nD τ).loc main_arg3)) := by
  have e : (V m c main_v1 : S128x1024.Idx → EReal) = truncf (F := Ideal) (s := S128x1024) (φ := .f32) .bf16 (m ((c : Thread nD τ).loc main_arg3)) bitsLt_bf16_f32 := by
    show StableHlo.after hostOps0 (fun b => m (c, b)) (Proc.devRef .tc main_v1) = _
    after_results; all_goals rfl
  rw [e]
  rfl

theorem colvec_v2 (c : Dev nD) : colvec (V m c main_v2) = vec (m ((c : Thread nD τ).loc main_arg2)) := by
  have e : (V m c main_v2 : S128x1.Idx → EReal) = shapeCast S128x1 (m ((c : Thread nD τ).loc main_arg2)) shapeCasts_S128_S128x1 := by
    show StableHlo.after hostOps0 (fun b => m (c, b)) (Proc.devRef .tc main_v2) = _
    after_results; all_goals rfl
  rw [e]
  funext h
  exact LibColumn.shapeCast_a_a1_apply _ _ h 0
theorem colvec_v3 (c : Dev nD) : colvec (V m c main_v3) = vec (m ((c : Thread nD τ).loc main_arg4)) := by
  have e : (V m c main_v3 : S128x1.Idx → EReal) = shapeCast S128x1 (m ((c : Thread nD τ).loc main_arg4)) shapeCasts_S128_S128x1 := by
    show StableHlo.after hostOps0 (fun b => m (c, b)) (Proc.devRef .tc main_v3) = _
    after_results; all_goals rfl
  rw [e]
  funext h
  exact LibColumn.shapeCast_a_a1_apply _ _ h 0
theorem colvec_v4 (c : Dev nD) : colvec (V m c main_v4) = vec (m ((c : Thread nD τ).loc main_arg6)) := by
  have e : (V m c main_v4 : S64x1.Idx → EReal) = shapeCast S64x1 (m ((c : Thread nD τ).loc main_arg6)) shapeCasts_S64_S64x1 := by
    show StableHlo.after hostOps0 (fun b => m (c, b)) (Proc.devRef .tc main_v4) = _
    after_results; all_goals rfl
  rw [e]
  funext h
  exact LibColumn.shapeCast_a_a1_apply _ _ h 0
theorem colvec_v5 (c : Dev nD) : colvec (V m c main_v5) = vec (m ((c : Thread nD τ).loc main_arg8)) := by
  have e : (V m c main_v5 : S32x1.Idx → EReal) = shapeCast S32x1 (m ((c : Thread nD τ).loc main_arg8)) shapeCasts_S32_S32x1 := by
    show StableHlo.after hostOps0 (fun b => m (c, b)) (Proc.devRef .tc main_v5) = _
    after_results; all_goals rfl
  rw [e]
  funext h
  exact LibColumn.shapeCast_a_a1_apply _ _ h 0
theorem colvec_v6 (c : Dev nD) : colvec (V m c main_v6) = vec (m ((c : Thread nD τ).loc main_arg10)) := by
  have e : (V m c main_v6 : S16x1.Idx → EReal) = shapeCast S16x1 (m ((c : Thread nD τ).loc main_arg10)) shapeCasts_S16_S16x1 := by
    show StableHlo.after hostOps0 (fun b => m (c, b)) (Proc.devRef .tc main_v6) = _
    after_results; all_goals rfl
  rw [e]
  funext h
  exact LibColumn.shapeCast_a_a1_apply _ _ h 0
theorem colvec_v7 (c : Dev nD) : colvec (V m c main_v7) = vec (m ((c : Thread nD τ).loc main_arg12)) := by
  have e : (V m c main_v7 : S1x1.Idx → EReal) = shapeCast S1x1 (m ((c : Thread nD τ).loc main_arg12)) shapeCasts_S1_S1x1 := by
    show StableHlo.after hostOps0 (fun b => m (c, b)) (Proc.devRef .tc main_v7) = _
    after_results; all_goals rfl
  rw [e]
  funext h
  exact LibColumn.shapeCast_a_a1_apply _ _ h 0

/-! ## The result after the region -/

/-- The program's result from the region's output array: two reshapes. -/
theorem tail_eq (c : Dev nD) : Pipeline.afterTail₀ cfgs (dats m) 0 (V0 m) [hostOps1] c main_v10
    = shapeCast S1048576x1 (shapeCast S1048576 ((dats m 0 c).arrAt 13 cfg0.N) shapeCasts_S64x1x16384_S1048576) shapeCasts_S1048576_S1048576x1 := by
  unfold Pipeline.afterTail₀
  show StableHlo.after hostOps1 _ (Proc.devRef .tc main_v10) = _
  after_results
  rw [Pipeline.withArrays_arr spec0 launch0.win.arr_inj c _ _ 13]
  rfl

/-- The program's result is the network at every row of the input. -/
theorem value (c : Dev nD) : Pipeline.afterTail₀ cfgs (dats m) 0 (V0 m) [hostOps1] c main_v10
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail_eq m c, final13 m c]
  funext i
  obtain ⟨b, u, rfl⟩ : ∃ (b : Fin 1048576) (u : Fin 1), i = ix2 b u := ⟨i 0, i 1, eq_ix2 i⟩
  have hb := b.isLt
  refine (LibColumn.shapeCast_a_a1_apply _ _ b u).trans ?_
  refine (shapeCast_apply _ _ (ix1 b) (ix3 (⟨b.val / 16384, by omega⟩ : Fin 64) (0 : Fin 1) (⟨b.val % 16384, Nat.mod_lt _ (by norm_num)⟩ : Fin 16384)) ?_).trans ?_
  · rw [Shape.rowMajor_val_three, Shape.rowMajor_val_one]
    show (b.val / 16384 * 1 + 0) * 16384 + b.val % 16384 = b.val
    omega
  · have hbi : bidx (⟨b.val / 16384, by omega⟩ : Fin 64) (⟨b.val % 16384, Nat.mod_lt _ (by norm_num)⟩ : Fin 16384) = b :=
      Fin.ext (by show b.val / 16384 * 16384 + b.val % 16384 = b.val; omega)
    show tail _ _ _ _ _ _ _ _ _ _ (lift1 _ _ (col (V m c main_v0) (bidx (⟨b.val / 16384, by omega⟩ : Fin 64) (⟨b.val % 16384, Nat.mod_lt _ (by norm_num)⟩ : Fin 16384)))) = _
    rw [hbi, col_v0, mat_v1, colvec_v2, colvec_v3, colvec_v4, colvec_v5, colvec_v6, colvec_v7, V_main_arg1 m c, V_main_arg5 m c,
      V_main_arg7 m c, V_main_arg9 m c, V_main_arg11 m c]
    rfl

/-! ## The run -/

/-- After the run every argument array is as launched: an array some window stages is never written back and ends as the region
    found it, an array no window stages ends as the host lines after the region leave it, and no host line writes an argument. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  ⟨(((h c).2 main_arg0 (Pipeline.mem_restRefs_of main_arg0 (by decide) (by decide))).trans (W_main_arg0 m (dats m) c)),
    ((h c).1 1).trans (((dats m 0 c).arrAt_in 1 rfl _).trans ((A_eq m c 1).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    ((h c).1 5).trans (((dats m 0 c).arrAt_in 5 rfl _).trans ((A_eq m c 5).trans (V_main_arg5 m c))),
    (((h c).2 main_arg6 (Pipeline.mem_restRefs_of main_arg6 (by decide) (by decide))).trans (W_main_arg6 m (dats m) c)),
    ((h c).1 7).trans (((dats m 0 c).arrAt_in 7 rfl _).trans ((A_eq m c 7).trans (V_main_arg7 m c))),
    (((h c).2 main_arg8 (Pipeline.mem_restRefs_of main_arg8 (by decide) (by decide))).trans (W_main_arg8 m (dats m) c)),
    ((h c).1 9).trans (((dats m 0 c).arrAt_in 9 rfl _).trans ((A_eq m c 9).trans (V_main_arg9 m c))),
    (((h c).2 main_arg10 (Pipeline.mem_restRefs_of main_arg10 (by decide) (by decide))).trans (W_main_arg10 m (dats m) c)),
    ((h c).1 11).trans (((dats m 0 c).arrAt_in 11 rfl _).trans ((A_eq m c 11).trans (V_main_arg11 m c))),
    (((h c).2 main_arg12 (Pipeline.mem_restRefs_of main_arg12 (by decide) (by decide))).trans (W_main_arg12 m (dats m) c))⟩

/-- Every weakly fair execution of the kernel's program ends with the result at the network of the launch arrays, row by
    row, and the argument arrays unchanged. -/
theorem run : θ_run defs (onTc (τ := τ) (main (F := Ideal))) ⟨m, fun _ => 0, ρ⟩ (fun r => ∀ c : Dev nD,
      r.2.mem ((c : Thread nD τ).loc main_v10) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun r h c => ⟨((h c).2 main_v10 (Pipeline.mem_restRefs_of main_v10 (by decide) (by decide))).trans (value m c),
      kept m r h c⟩) (run_main m ρ)

end Cert.KernelIdeal.Host

end
-- ==== Proof.RBody.lean ====
/-
  The reference kernel's body at one lane.
  The body holds an [8, N] block of the transposed input and runs six dense layers on it, the first a [1024, 8] matrix with a
  [1024, 1] bias. Read at lane j, every layer only sees column j: the stored [1, N] block at (0, j) is the layers' composition
  at column j of the input block.
-/
import proofs.«161506_g2000504593560428_pallasbulk_1050_27_alg».proof.Proof.Gen.ReferenceIdeal.Frame
import proofs.«161506_g2000504593560428_pallasbulk_1050_27_alg».proof.Proof.Mlp

noncomputable section

namespace Cert.ReferenceIdeal.Body

open Idealize.ShloMosaic Idealize.ShloMosaic.ValueIdx Cert.LibDenseColumn Cert.Mlp

theorem hz2 : (![0, 0] : Fin 2 → Nat) = fun _ => 0 := funext fun a => by fin_cases a <;> rfl

open Cert.ReferenceIdeal Cert.ReferenceIdeal.Gen

/-- What the body leaves in the output block, at lane `j`: the five later layers applied to the positive part of the first
    dense layer of column `j` of the input block, the weights and biases read off the loaded blocks. -/
theorem out_lane (x0 : Vec Ideal S8x4096 .f32) (x1 : Vec Ideal S1024x8 .f32) (x2 : Vec Ideal S1024x1 .f32)
    (x3 : Vec Ideal S128x1024 .f32) (x4 : Vec Ideal S128x1 .f32) (x5 : Vec Ideal S64x128 .f32) (x6 : Vec Ideal S64x1 .f32)
    (x7 : Vec Ideal S32x64 .f32) (x8 : Vec Ideal S32x1 .f32) (x9 : Vec Ideal S16x32 .f32) (x10 : Vec Ideal S16x1 .f32)
    (x11 : Vec Ideal S1x16 .f32) (x12 : Vec Ideal S1x1 .f32) (j : Fin 4096) :
    out0_13 (F := Ideal) x0 x1 x2 x3 x4 x5 x6 x7 x8 x9 x10 x11 x12 (ix2 (0 : Fin 1) j)
      = tail (mat x3) (colvec x4) (mat x5) (colvec x6) (mat x7) (colvec x8) (mat x9) (colvec x10) (mat x11) (colvec x12)
          (relu (dense (mat x1) (colvec x2) (col x0 j))) := by
  unfold out0_13
  rw [View.canon_unit_zero hz2]
  simp only [View.ld_unit_zero (S := S8x4096) hz2, View.ld_unit_zero (S := S1024x8) hz2, View.ld_unit_zero (S := S1024x1) hz2,
    View.ld_unit_zero (S := S128x1024) hz2, View.ld_unit_zero (S := S128x1) hz2,
    View.ld_unit_zero (S := S64x128) hz2, View.ld_unit_zero (S := S64x1) hz2, View.ld_unit_zero (S := S32x64) hz2,
    View.ld_unit_zero (S := S32x1) hz2, View.ld_unit_zero (S := S16x32) hz2, View.ld_unit_zero (S := S16x1) hz2,
    View.ld_unit_zero (S := S1x16) hz2, View.ld_unit_zero (S := S1x1) hz2]
  unfold k0_pay1 k0_pay2 tail
  refine (congrFun (col_affine _ rfl none _ _ _ _ _ j) (0 : Fin 1)).trans ?_
  refine congrArg (fun v => dense (mat x11) (colvec x12) v (0 : Fin 1)) ?_
  refine (col_relu _ j).trans (congrArg relu ?_)
  refine (col_affine _ rfl none _ _ _ _ _ j).trans (congrArg (dense (mat x9) (colvec x10)) ?_)
  refine (col_relu _ j).trans (congrArg relu ?_)
  refine (col_affine _ rfl none _ _ _ _ _ j).trans (congrArg (dense (mat x7) (colvec x8)) ?_)
  refine (col_relu _ j).trans (congrArg relu ?_)
  refine (col_affine _ rfl none _ _ _ _ _ j).trans (congrArg (dense (mat x5) (colvec x6)) ?_)
  refine (col_relu _ j).trans (congrArg relu ?_)
  refine (col_affine _ rfl none _ _ _ _ _ j).trans (congrArg (dense (mat x3) (colvec x4)) ?_)
  refine (col_relu _ j).trans (congrArg relu ?_)
  refine (col_affine _ rfl none _ _ _ _ _ j).trans ?_
  rw [shapeCast_self x1, shapeCast_self x0]

end Cert.ReferenceIdeal.Body

end
-- ==== Proof.RValue.lean ====
/-
  The array the reference's region writes.
  The region's grid has 256 points; point t holds columns 4096·t … 4096·t + 4095 of the transposed input (an [8, 4096] block) and
  every weight and bias array whole, and writes block t of the [1, 1048576] output. By the body's value at a lane, entry (0, b) of
  the output is the six layers' composition at column b of the transposed input. The 256 blocks tile the output, so the array
  after the run is that function everywhere.
-/
import proofs.«161506_g2000504593560428_pallasbulk_1050_27_alg».proof.Proof.RBody
import Idealize.ShloMosaic.Lib.Pipeline.Value

noncomputable section

namespace Cert.ReferenceIdeal.Val

open Idealize.ShloMosaic Idealize.ShloMosaic.TcCoe Idealize.SL.Sem Idealize.ShloMosaic.ValueIdx
open Idealize.ShloMosaic.Pipeline (Dat)
open Cert.ReferenceIdeal Cert.ReferenceIdeal.Gen Cert.LibDenseColumn Cert.Mlp

variable (m : (ℓ : Loc nD τ sig) → Buf (Elt Ideal) ℓ) (ρ : Dev nD → PrngReg)

/-- Batch element `4096·p + q`. -/
def bidx (p : Fin 256) (q : Fin 4096) : Fin 1048576 := ⟨p.val * 4096 + q.val, by have := p.isLt; have := q.isLt; omega⟩

/-- The region's output array as one function of the arrays the region finds: entry (u, b) is the layers' composition at
    column `b` of the transposed input. -/
def G13 (A0 : S8x1048576.Idx → EReal) (A1 : S1024x8.Idx → EReal) (A2 : S1024x1.Idx → EReal) (A3 : S128x1024.Idx → EReal)
    (A4 : S128x1.Idx → EReal) (A5 : S64x128.Idx → EReal) (A6 : S64x1.Idx → EReal) (A7 : S32x64.Idx → EReal) (A8 : S32x1.Idx → EReal)
    (A9 : S16x32.Idx → EReal) (A10 : S16x1.Idx → EReal) (A11 : S1x16.Idx → EReal) (A12 : S1x1.Idx → EReal) :
    S1x1048576.Idx → EReal :=
  fun i => tail (mat A3) (colvec A4) (mat A5) (colvec A6) (mat A7) (colvec A8) (mat A9) (colvec A10) (mat A11) (colvec A12)
    (relu (dense (mat A1) (colvec A2) (col A0 (i 1))))

/-! ## The printed index maps, decided over the 256 points -/

theorem idx_0 : ∀ t : Fin cfg0.N, win0_0.index t (0 : Fin 2) = 0 ∧ win0_0.index t (1 : Fin 2) = t.val :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = t.val :=
  (by decide +kernel : ∀ t : Fin grid0.N, _)

/-! ## Each input block is its array read where the point says -/

/-- The input block at point `t`: columns `4096·t …` of the transposed input. -/
theorem blk_0 (c : Dev nD) (t : Fin cfg0.N) (k : Fin 8) (j : Fin 4096) :
    (iblk m c 0 t : S8x4096.Idx → EReal) (ix2 k j) = V m c main_v11 (ix2 k (bidx (t.cast N_0) j)) := by
  obtain ⟨e0, e1⟩ := idx_0 t
  show V m c main_v11 (((cfg0.win 0).blk t).view.emb (ix2 k j)) = V m c main_v11 _
  refine congrArg _ (funext fun a => Fin.ext ?_)
  match a with
  | ⟨0, _⟩ => show win0_0.index t (0 : Fin 2) * 8 + 1 * k.val = k.val; rw [e0]; omega
  | ⟨1, _⟩ => show win0_0.index t (1 : Fin 2) * 4096 + 1 * j.val = t.val * 4096 + j.val; rw [e1]; omega

theorem blk_1 (c : Dev nD) (t : Fin cfg0.N) : (iblk m c 1 t : S1024x8.Idx → EReal) = V m c main_v6 := by
  obtain ⟨e0, e1⟩ := idx_1 t
  funext y
  show V m c main_v6 (((cfg0.win 1).blk t).view.emb y) = V m c main_v6 y
  refine congrArg _ (funext fun a => Fin.ext ?_)
  match a with
  | ⟨0, _⟩ => show win0_1.index t (0 : Fin 2) * 1024 + 1 * (y 0).val = (y 0).val; rw [e0]; omega
  | ⟨1, _⟩ => show win0_1.index t (1 : Fin 2) * 8 + 1 * (y 1).val = (y 1).val; rw [e1]; omega
theorem blk_2 (c : Dev nD) (t : Fin cfg0.N) : (iblk m c 2 t : S1024x1.Idx → EReal) = V m c main_v10 := by
  obtain ⟨e0, e1⟩ := idx_2 t
  funext y
  show V m c main_v10 (((cfg0.win 2).blk t).view.emb y) = V m c main_v10 y
  refine congrArg _ (funext fun a => Fin.ext ?_)
  match a with
  | ⟨0, _⟩ => show win0_2.index t (0 : Fin 2) * 1024 + 1 * (y 0).val = (y 0).val; rw [e0]; omega
  | ⟨1, _⟩ => show win0_2.index t (1 : Fin 2) * 1 + 1 * (y 1).val = (y 1).val; rw [e1]; omega
theorem blk_3 (c : Dev nD) (t : Fin cfg0.N) : (iblk m c 3 t : S128x1024.Idx → EReal) = V m c main_arg3 := by
  obtain ⟨e0, e1⟩ := idx_3 t
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 1024 + 1 * (y 1).val = (y 1).val; rw [e1]; omega
theorem blk_4 (c : Dev nD) (t : Fin cfg0.N) : (iblk m c 4 t : S128x1.Idx → EReal) = V m c main_v12 := by
  obtain ⟨e0, e1⟩ := idx_4 t
  funext y
  show V m c main_v12 (((cfg0.win 4).blk t).view.emb y) = V m c main_v12 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega
theorem blk_5 (c : Dev nD) (t : Fin cfg0.N) : (iblk m c 5 t : S64x128.Idx → EReal) = V m c main_arg5 := by
  obtain ⟨e0, e1⟩ := idx_5 t
  funext y
  show V m c main_arg5 (((cfg0.win 5).blk t).view.emb y) = V m c main_arg5 y
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 128 + 1 * (y 1).val = (y 1).val; rw [e1]; omega
theorem blk_6 (c : Dev nD) (t : Fin cfg0.N) : (iblk m c 6 t : S64x1.Idx → EReal) = V m c main_v13 := by
  obtain ⟨e0, e1⟩ := idx_6 t
  funext y
  show V m c main_v13 (((cfg0.win 6).blk t).view.emb y) = V m c main_v13 y
  refine congrArg _ (funext fun a => Fin.ext ?_)
  match a with
  | ⟨0, _⟩ => show win0_6.index t (0 : Fin 2) * 64 + 1 * (y 0).val = (y 0).val; rw [e0]; omega
  | ⟨1, _⟩ => show win0_6.index t (1 : Fin 2) * 1 + 1 * (y 1).val = (y 1).val; rw [e1]; omega
theorem blk_7 (c : Dev nD) (t : Fin cfg0.N) : (iblk m c 7 t : S32x64.Idx → EReal) = V m c main_arg7 := by
  obtain ⟨e0, e1⟩ := idx_7 t
  funext y
  show V m c main_arg7 (((cfg0.win 7).blk t).view.emb y) = V m c main_arg7 y
  refine congrArg _ (funext fun a => Fin.ext ?_)
  match a with
  | ⟨0, _⟩ => show win0_7.index t (0 : Fin 2) * 32 + 1 * (y 0).val = (y 0).val; rw [e0]; omega
  | ⟨1, _⟩ => show win0_7.index t (1 : Fin 2) * 64 + 1 * (y 1).val = (y 1).val; rw [e1]; omega
theorem blk_8 (c : Dev nD) (t : Fin cfg0.N) : (iblk m c 8 t : S32x1.Idx → EReal) = V m c main_v14 := by
  obtain ⟨e0, e1⟩ := idx_8 t
  funext y
  show V m c main_v14 (((cfg0.win 8).blk t).view.emb y) = V m c main_v14 y
  refine congrArg _ (funext fun a => Fin.ext ?_)
  match a with
  | ⟨0, _⟩ => show win0_8.index t (0 : Fin 2) * 32 + 1 * (y 0).val = (y 0).val; rw [e0]; omega
  | ⟨1, _⟩ => show win0_8.index t (1 : Fin 2) * 1 + 1 * (y 1).val = (y 1).val; rw [e1]; omega
theorem blk_9 (c : Dev nD) (t : Fin cfg0.N) : (iblk m c 9 t : S16x32.Idx → EReal) = V m c main_arg9 := by
  obtain ⟨e0, e1⟩ := idx_9 t
  funext y
  show V m c main_arg9 (((cfg0.win 9).blk t).view.emb y) = V m c main_arg9 y
  refine congrArg _ (funext fun a => Fin.ext ?_)
  match a with
  | ⟨0, _⟩ => show win0_9.index t (0 : Fin 2) * 16 + 1 * (y 0).val = (y 0).val; rw [e0]; omega
  | ⟨1, _⟩ => show win0_9.index t (1 : Fin 2) * 32 + 1 * (y 1).val = (y 1).val; rw [e1]; omega
theorem blk_10 (c : Dev nD) (t : Fin cfg0.N) : (iblk m c 10 t : S16x1.Idx → EReal) = V m c main_v15 := by
  obtain ⟨e0, e1⟩ := idx_10 t
  funext y
  show V m c main_v15 (((cfg0.win 10).blk t).view.emb y) = V m c main_v15 y
  refine congrArg _ (funext fun a => Fin.ext ?_)
  match a with
  | ⟨0, _⟩ => show win0_10.index t (0 : Fin 2) * 16 + 1 * (y 0).val = (y 0).val; rw [e0]; omega
  | ⟨1, _⟩ => show win0_10.index t (1 : Fin 2) * 1 + 1 * (y 1).val = (y 1).val; rw [e1]; omega
theorem blk_11 (c : Dev nD) (t : Fin cfg0.N) : (iblk m c 11 t : S1x16.Idx → EReal) = V m c main_arg11 := by
  obtain ⟨e0, e1⟩ := idx_11 t
  funext y
  show V m c main_arg11 (((cfg0.win 11).blk t).view.emb y) = V m c main_arg11 y
  refine congrArg _ (funext fun a => Fin.ext ?_)
  match a with
  | ⟨0, _⟩ => show win0_11.index t (0 : Fin 2) * 1 + 1 * (y 0).val = (y 0).val; rw [e0]; omega
  | ⟨1, _⟩ => show win0_11.index t (1 : Fin 2) * 16 + 1 * (y 1).val = (y 1).val; rw [e1]; omega
theorem blk_12 (c : Dev nD) (t : Fin cfg0.N) : (iblk m c 12 t : S1x1.Idx → EReal) = V m c main_v16 := by
  obtain ⟨e0, e1⟩ := idx_12 t
  funext y
  show V m c main_v16 (((cfg0.win 12).blk t).view.emb y) = V m c main_v16 y
  refine congrArg _ (funext fun a => Fin.ext ?_)
  match a with
  | ⟨0, _⟩ => show win0_12.index t (0 : Fin 2) * 1 + 1 * (y 0).val = (y 0).val; rw [e0]; omega
  | ⟨1, _⟩ => show win0_12.index t (1 : Fin 2) * 1 + 1 * (y 1).val = (y 1).val; rw [e1]; omega

/-- Where lane `j` of point `t`'s output block sits in the output array. -/
theorem emb_13 (t : Fin cfg0.N) (j : Fin 4096) :
    (((cfg0.win 13).blk t).view.emb (ix2 (0 : Fin 1) j) : S1x1048576.Idx) = ix2 (0 : Fin 1) (bidx (t.cast N_0) j) := by
  obtain ⟨e0, e1⟩ := idx_13 t
  refine funext fun a => Fin.ext ?_
  match a with
  | ⟨0, _⟩ => show win0_13.index t (0 : Fin 2) * 1 + 1 * 0 = 0; rw [e0]
  | ⟨1, _⟩ => show win0_13.index t (1 : Fin 2) * 4096 + 1 * j.val = t.val * 4096 + j.val; rw [e1]; omega

/-- Two functions on a [1, 4096] block agree when they agree at every lane. -/
theorem lane_ext (f g : S1x4096.Idx → EReal) (h : ∀ j : Fin 4096, f (ix2 (0 : Fin 1) j) = g (ix2 (0 : Fin 1) j)) : f = g := by
  funext y
  have h0 : (y 0).val < 1 := (y 0).isLt
  have e : y = ix2 (0 : Fin 1) (y 1) := by
    funext a
    match a with
    | ⟨0, _⟩ => exact Fin.ext (by show (y 0).val = 0; omega)
    | ⟨1, _⟩ => rfl
  rw [e]
  exact h _

/-- WHAT POINT `t` WRITES BACK is block `t` of `G13` of the arrays as the region finds them. -/
theorem flushed_eq (c : Dev nD) (t : Fin cfg0.N) :
    (dats m 0 c).flushed 13 t = ((cfg0.win 13).blk t).view.read (Elt Ideal) (G13 (V m c main_v11) (V m c main_v6) (V m c main_v10) (V m c main_arg3) (V m c main_v12) (V m c main_arg5) (V m c main_v13) (V m c main_arg7) (V m c main_v14) (V m c main_arg9) (V m c main_v15) (V m c main_arg11) (V m c main_v16)) := by
  show (cfg0.win 13).cut (grid0.coords t) ((dats m 0 c).after 13 t) = _
  rw [after0_13]
  refine lane_ext _ _ fun j => ?_
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 (0 : Fin 1) j)
    = G13 (V m c main_v11) (V m c main_v6) (V m c main_v10) (V m c main_arg3) (V m c main_v12) (V m c main_arg5) (V m c main_v13) (V m c main_arg7) (V m c main_v14) (V m c main_arg9) (V m c main_v15) (V m c main_arg11) (V m c main_v16) (((cfg0.win 13).blk t).view.emb (ix2 (0 : Fin 1) j))
  refine (Body.out_lane (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j).trans ?_
  rw [emb_13 t j, blk_1 m c t, blk_2 m c t, blk_3 m c t, blk_4 m c t, blk_5 m c t, blk_6 m c t, blk_7 m c t, blk_8 m c t, blk_9 m c t,
    blk_10 m c t, blk_11 m c t, blk_12 m c t]
  unfold G13
  refine congrArg (fun x => tail _ _ _ _ _ _ _ _ _ _ (relu (dense _ _ x))) (funext fun k => ?_)
  exact blk_0 m c t k j

/-- An index of the output array is in point `t`'s block iff each coordinate is in the block's range on its axis. -/
theorem mem_blk13 (t : Fin cfg0.N) (i : S1x1048576.Idx) :
    i ∈ ((cfg0.win 13).blk t).view.set ↔ ∀ a : Fin 2, win0_13.index t a * S1x4096.size a ≤ (i a).val ∧ (i a).val < win0_13.index t a * S1x4096.size a + S1x4096.size a := by
  show i ∈ ((View.whole main_v17).slice (win0_13.rect t)).set ↔ _
  rw [View.set_slice_whole, Rect.mem_set_unit]
  exact Iff.rfl

/-- Every index of the output array is in the block of the point its column over 4096 names. -/
theorem cover13 (i : S1x1048576.Idx) : ∃ t : Fin cfg0.N, (cfg0.win 13).flush t = true ∧ i ∈ ((cfg0.win 13).blk t).view.set := by
  have h0 : (i 0).val < 1 := (i 0).isLt
  have h1 : (i 1).val < 1048576 := (i 1).isLt
  have hN : cfg0.N = 256 := N_0
  refine ⟨⟨(i 1).val / 4096, by rw [hN]; omega⟩, flush0_13 _, ?_⟩
  rw [mem_blk13]
  obtain ⟨e0, e1⟩ := idx_13 ⟨(i 1).val / 4096, by rw [hN]; omega⟩
  intro a
  match a with
  | ⟨0, _⟩ => show win0_13.index _ (0 : Fin 2) * 1 ≤ (i 0).val ∧ (i 0).val < win0_13.index _ (0 : Fin 2) * 1 + 1; rw [e0]; omega
  | ⟨1, _⟩ => show win0_13.index _ (1 : Fin 2) * 4096 ≤ (i 1).val ∧ (i 1).val < win0_13.index _ (1 : Fin 2) * 4096 + 4096; rw [e1]; show (i 1).val / 4096 * 4096 ≤ (i 1).val ∧ (i 1).val < (i 1).val / 4096 * 4096 + 4096; omega

/-- THE ARRAY after the run is `G13` of the arrays as the region finds them. -/
theorem final13 (c : Dev nD) : (dats m 0 c).arrAt 13 cfg0.N = G13 (V m c main_v11) (V m c main_v6) (V m c main_v10) (V m c main_arg3) (V m c main_v12) (V m c main_arg5) (V m c main_v13) (V m c main_arg7) (V m c main_v14) (V m c main_arg9) (V m c main_v15) (V m c main_arg11) (V m c main_v16) :=
  (dats m 0 c).arrAt_eq_of_cover 13 _ (fun t _ => flushed_eq m c t) cover13

end Cert.ReferenceIdeal.Val

end
-- ==== Proof.RHost.lean ====
/-
  The reference's program around its region, read as values.
  Before the region the host builds the first layer's [1024, 8] matrix as the Kronecker product of the 8×8 identity (an iota
  compared with an iota, read as 0 / 1) with the column w1 — two broadcasts to [8, 128, 8, 1], a product, a reshape —, repeats
  b1 eight times as a [1024, 1] column, transposes the input and makes each other bias vector a column. After the region it
  flattens the [1, 1048576] output and gives it a trailing unit axis. By the law of the first layer the result at row b is the
  network at row b of the input.
-/
import proofs.«161506_g2000504593560428_pallasbulk_1050_27_alg».proof.Proof.RValue
import Idealize.ShloMosaic.Lib.StableHlo.Run
import Idealize.ShloMosaic.Lib.IdealHost

noncomputable section

namespace Cert.ReferenceIdeal.Host

open Idealize.ShloMosaic Idealize.ShloMosaic.TcCoe Idealize.SL.Sem Idealize.ShloMosaic.ValueIdx
open Idealize.ShloMosaic.Pipeline (Dat)
open Cert.ReferenceIdeal Cert.ReferenceIdeal.Gen Cert.LibDenseColumn Cert.Mlp Cert.ReferenceIdeal.Val

variable (m : (ℓ : Loc nD τ sig) → Buf (Elt Ideal) ℓ) (ρ : Dev nD → PrngReg)

/-! ## The identity matrix -/

/-- Two coordinates below 8 are equal as 32-bit words exactly when they are equal. -/
theorem word_eq : ∀ a b : Fin 8, IntOp.cmpi .eq (IntOp.addi (BitVec.ofNat 32 a.val) 0#32) (BitVec.ofNat 32 b.val)
    = if a.val = b.val then 1#1 else 0#1 := by decide

/-- Entry (a, b) of the identity: the comparison of the two iotas read as a number. -/
theorem eye_apply (hb : S_.BroadcastsInDim S8x8 ![]) (a b : Fin 8) :
    (uitofp (F := Ideal) .f32 (cmpi .eq (addi (iotaInDim S8x8 32 0) (broadcastInDim S8x8 ![] hb (constantI S_ 32 0#32))) (iotaInDim S8x8 32 1)))
      (ix2 a b) = if a.val = b.val then (1 : EReal) else 0 := by
  show FloatOps.uitofp (F := Ideal) .f32 (IntOp.cmpi .eq (IntOp.addi (BitVec.ofNat 32 a.val) 0#32) (BitVec.ofNat 32 b.val)) = _
  rw [word_eq a b]
  split
  · show (((1#1 : BitVec 1).toNat : ℝ) : EReal) = 1
    simp
  · show (((0#1 : BitVec 1).toNat : ℝ) : EReal) = 0
    simp

/-! ## What the region finds in the buffers the host wrote -/

/-- The first layer's matrix: entry (r, k') is the identity's entry (r / 128, k') times w1 at r % 128. -/
theorem mat_v6 (c : Dev nD) (r : Fin 1024) (k' : Fin 8) :
    mat (V m c main_v6) r k' = (if r.val / 128 = k'.val then (1 : EReal) else 0)
      * colvec (m ((c : Thread nD τ).loc main_arg1)) ⟨r.val % 128, Nat.mod_lt _ (by norm_num)⟩ := by
  have e : (V m c main_v6 : S1024x8.Idx → EReal)
      = shapeCast S1024x8 (mulf
          (broadcastInDim S8x128x8x1 ![0, 1, 2, 3] bcast_S8x1x8x1_S8x128x8x1_0_1_2_3 (broadcastInDim S8x1x8x1 ![0, 2] bcast_S8x8_S8x1x8x1_0_2
            (uitofp (F := Ideal) .f32 (cmpi .eq (addi (iotaInDim S8x8 32 0) (broadcastInDim S8x8 ![] bcast_S_S8x8 (constantI S_ 32 0#32))) (iotaInDim S8x8 32 1)))))
          (broadcastInDim S8x128x8x1 ![0, 1, 2, 3] bcast_S1x128x1x1_S8x128x8x1_0_1_2_3 (broadcastInDim S1x128x1x1 ![1, 3] bcast_S128x1_S1x128x1x1_1_3
            (m ((c : Thread nD τ).loc main_arg1))))) shapeCasts_S8x128x8x1_S1024x8 := by
    dsimp only [V, V0]
    simp only [hostOps0, hostOps0_1, hostOps0_2, List.flatten_cons, List.flatten_nil, List.append_nil, List.cons_append, List.nil_append]
    after_results; all_goals rfl
  have hr := r.isLt
  show (V m c main_v6 : S1024x8.Idx → EReal) (ix2 r k') = _
  rw [e]
  refine (shapeCast_apply _ _ (ix2 r k') (ix4 (⟨r.val / 128, by omega⟩ : Fin 8) (⟨r.val % 128, Nat.mod_lt _ (by norm_num)⟩ : Fin 128) k' (0 : Fin 1)) ?_).trans ?_
  · rw [Shape.rowMajor_val_four, Shape.rowMajor_val_two]
    show ((r.val / 128 * 128 + r.val % 128) * 8 + k'.val) * 1 + 0 = r.val * 8 + k'.val
    omega
  · rw [mulf_apply]
    refine congr (congrArg HMul.hMul ?_) ?_
    · refine (broadcastInDim_apply _ _ _ _ (ix4 (⟨r.val / 128, by omega⟩ : Fin 8) (0 : Fin 1) k' (0 : Fin 1)) (fun a => by
        match a with
        | ⟨0, _⟩ => rfl
        | ⟨1, _⟩ => rfl
        | ⟨2, _⟩ => rfl
        | ⟨3, _⟩ => rfl)).trans ?_
      refine (broadcastInDim_apply _ _ _ _ (ix2 (⟨r.val / 128, by omega⟩ : Fin 8) k') (fun a => by
        match a with
        | ⟨0, _⟩ => rfl
        | ⟨1, _⟩ => rfl)).trans ?_
      exact eye_apply _ _ _
    · refine (broadcastInDim_apply _ _ _ _ (ix4 (0 : Fin 1) (⟨r.val % 128, Nat.mod_lt _ (by norm_num)⟩ : Fin 128) (0 : Fin 1) (0 : Fin 1)) (fun a => by
        match a with
        | ⟨0, _⟩ => rfl
        | ⟨1, _⟩ => rfl
        | ⟨2, _⟩ => rfl
        | ⟨3, _⟩ => rfl)).trans ?_
      exact broadcastInDim_apply _ _ _ _ (ix2 (⟨r.val % 128, Nat.mod_lt _ (by norm_num)⟩ : Fin 128) (0 : Fin 1)) (fun a => by
        match a with
        | ⟨0, _⟩ => rfl
        | ⟨1, _⟩ => rfl)

/-- The first layer's bias: entry r is b1 at r % 128. -/
theorem colvec_v10 (c : Dev nD) (r : Fin 1024) :
    colvec (V m c main_v10) r = vec (m ((c : Thread nD τ).loc main_arg2)) ⟨r.val % 128, Nat.mod_lt _ (by norm_num)⟩ := by
  have e : (V m c main_v10 : S1024x1.Idx → EReal)
      = shapeCast S1024x1 (broadcastInDim S8x128x1x1 ![0, 1, 2, 3] bcast_S1x128x1x1_S8x128x1x1_0_1_2_3
          (shapeCast S1x128x1x1 (shapeCast S128x1 (m ((c : Thread nD τ).loc main_arg2)) shapeCasts_S128_S128x1) shapeCasts_S128x1_S1x128x1x1))
          shapeCasts_S8x128x1x1_S1024x1 := by
    dsimp only [V, V0]
    simp only [hostOps0, hostOps0_1, hostOps0_2, List.flatten_cons, List.flatten_nil, List.append_nil, List.cons_append, List.nil_append]
    after_results; all_goals rfl
  have hr := r.isLt
  show (V m c main_v10 : S1024x1.Idx → EReal) (ix2 r (0 : Fin 1)) = _
  rw [e]
  refine (shapeCast_apply _ _ (ix2 r (0 : Fin 1)) (ix4 (⟨r.val / 128, by omega⟩ : Fin 8) (⟨r.val % 128, Nat.mod_lt _ (by norm_num)⟩ : Fin 128) (0 : Fin 1) (0 : Fin 1)) ?_).trans ?_
  · rw [Shape.rowMajor_val_four, Shape.rowMajor_val_two]
    show ((r.val / 128 * 128 + r.val % 128) * 1 + 0) * 1 + 0 = r.val * 1 + 0
    omega
  · refine (broadcastInDim_apply _ _ _ _ (ix4 (0 : Fin 1) (⟨r.val % 128, Nat.mod_lt _ (by norm_num)⟩ : Fin 128) (0 : Fin 1) (0 : Fin 1)) (fun a => by
      match a with
      | ⟨0, _⟩ => rfl
      | ⟨1, _⟩ => rfl
      | ⟨2, _⟩ => rfl
      | ⟨3, _⟩ => rfl)).trans ?_
    refine (shapeCast_apply _ _ _ (ix2 (⟨r.val % 128, Nat.mod_lt _ (by norm_num)⟩ : Fin 128) (0 : Fin 1)) ?_).trans ?_
    · rw [Shape.rowMajor_val_four, Shape.rowMajor_val_two]
      show r.val % 128 * 1 + 0 = ((0 * 128 + r.val % 128) * 1 + 0) * 1 + 0
      omega
    · exact LibColumn.shapeCast_a_a1_apply _ _ _ 0

/-- So the reference's first layer with its positive part is the per-feature first layer. -/
theorem first_layer (c : Dev nD) (x : Fin 8 → EReal) :
    relu (dense (mat (V m c main_v6)) (colvec (V m c main_v10)) x) = lift1 (colvec (m ((c : Thread nD τ).loc main_arg1))) (vec (m ((c : Thread nD τ).loc main_arg2))) x :=
  lift1_of_kron _ _ _ _ (mat_v6 m c) (colvec_v10 m c) x

/-- Column `b` of the transposed input is row `b` of the input. -/
theorem col_v11 (c : Dev nD) (b : Fin 1048576) : col (V m c main_v11) b = row (m ((c : Thread nD τ).loc main_arg0)) b := by
  have e : (V m c main_v11 : S8x1048576.Idx → EReal)
      = transpose S8x1048576 [1, 0] (m ((c : Thread nD τ).loc main_arg0)) transposes_S1048576x8_S8x1048576_1_0 := by
    dsimp only [V, V0]
    simp only [hostOps0, hostOps0_1, hostOps0_2, List.flatten_cons, List.flatten_nil, List.append_nil, List.cons_append, List.nil_append]
    after_results; all_goals rfl
  rw [e]
  funext k
  exact transpose_apply [1, 0] _ _ (ix2 k b) (ix2 b k) (fun a => by
    match a with
    | ⟨0, _⟩ => rfl
    | ⟨1, _⟩ => rfl)

theorem colvec_v12 (c : Dev nD) : colvec (V m c main_v12) = vec (m ((c : Thread nD τ).loc main_arg4)) := by
  have e : (V m c main_v12 : S128x1.Idx → EReal) = shapeCast S128x1 (m ((c : Thread nD τ).loc main_arg4)) shapeCasts_S128_S128x1 := by
    dsimp only [V, V0]
    simp only [hostOps0, hostOps0_1, hostOps0_2, List.flatten_cons, List.flatten_nil, List.append_nil, List.cons_append, List.nil_append]
    after_results; all_goals rfl
  rw [e]
  funext h
  exact LibColumn.shapeCast_a_a1_apply _ _ h 0
theorem colvec_v13 (c : Dev nD) : colvec (V m c main_v13) = vec (m ((c : Thread nD τ).loc main_arg6)) := by
  have e : (V m c main_v13 : S64x1.Idx → EReal) = shapeCast S64x1 (m ((c : Thread nD τ).loc main_arg6)) shapeCasts_S64_S64x1 := by
    dsimp only [V, V0]
    simp only [hostOps0, hostOps0_1, hostOps0_2, List.flatten_cons, List.flatten_nil, List.append_nil, List.cons_append, List.nil_append]
    after_results; all_goals rfl
  rw [e]
  funext h
  exact LibColumn.shapeCast_a_a1_apply _ _ h 0
theorem colvec_v14 (c : Dev nD) : colvec (V m c main_v14) = vec (m ((c : Thread nD τ).loc main_arg8)) := by
  have e : (V m c main_v14 : S32x1.Idx → EReal) = shapeCast S32x1 (m ((c : Thread nD τ).loc main_arg8)) shapeCasts_S32_S32x1 := by
    dsimp only [V, V0]
    simp only [hostOps0, hostOps0_1, hostOps0_2, List.flatten_cons, List.flatten_nil, List.append_nil, List.cons_append, List.nil_append]
    after_results; all_goals rfl
  rw [e]
  funext h
  exact LibColumn.shapeCast_a_a1_apply _ _ h 0
theorem colvec_v15 (c : Dev nD) : colvec (V m c main_v15) = vec (m ((c : Thread nD τ).loc main_arg10)) := by
  have e : (V m c main_v15 : S16x1.Idx → EReal) = shapeCast S16x1 (m ((c : Thread nD τ).loc main_arg10)) shapeCasts_S16_S16x1 := by
    dsimp only [V, V0]
    simp only [hostOps0, hostOps0_1, hostOps0_2, List.flatten_cons, List.flatten_nil, List.append_nil, List.cons_append, List.nil_append]
    after_results; all_goals rfl
  rw [e]
  funext h
  exact LibColumn.shapeCast_a_a1_apply _ _ h 0
theorem colvec_v16 (c : Dev nD) : colvec (V m c main_v16) = vec (m ((c : Thread nD τ).loc main_arg12)) := by
  have e : (V m c main_v16 : S1x1.Idx → EReal) = shapeCast S1x1 (m ((c : Thread nD τ).loc main_arg12)) shapeCasts_S1_S1x1 := by
    dsimp only [V, V0]
    simp only [hostOps0, hostOps0_1, hostOps0_2, List.flatten_cons, List.flatten_nil, List.append_nil, List.cons_append, List.nil_append]
    after_results; all_goals rfl
  rw [e]
  funext h
  exact LibColumn.shapeCast_a_a1_apply _ _ h 0

/-! ## The result after the region -/

/-- The program's result from the region's output array: two reshapes. -/
theorem tail_eq (c : Dev nD) : Pipeline.afterTail₀ cfgs (dats m) 0 (V0 m) [hostOps1] c main_v19
    = shapeCast S1048576x1 (shapeCast S1048576 ((dats m 0 c).arrAt 13 cfg0.N) shapeCasts_S1x1048576_S1048576) shapeCasts_S1048576_S1048576x1 := by
  unfold Pipeline.afterTail₀
  show StableHlo.after hostOps1 _ (Proc.devRef .tc main_v19) = _
  after_results
  rw [Pipeline.withArrays_arr spec0 launch0.win.arr_inj c _ _ 13]
  rfl

/-- The program's result is the network at every row of the input. -/
theorem value (c : Dev nD) : Pipeline.afterTail₀ cfgs (dats m) 0 (V0 m) [hostOps1] c main_v19
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail_eq m c, final13 m c]
  funext i
  obtain ⟨b, u, rfl⟩ : ∃ (b : Fin 1048576) (u : Fin 1), i = ix2 b u := ⟨i 0, i 1, eq_ix2 i⟩
  refine (LibColumn.shapeCast_a_a1_apply _ _ b u).trans ?_
  refine (shapeCast_apply _ _ (ix1 b) (ix2 (0 : Fin 1) b) ?_).trans ?_
  · rw [Shape.rowMajor_val_two, Shape.rowMajor_val_one]
    show 0 * 1048576 + b.val = b.val
    omega
  · show tail _ _ _ _ _ _ _ _ _ _ (relu (dense (mat (V m c main_v6)) (colvec (V m c main_v10)) (col (V m c main_v11) b))) = _
    rw [first_layer, col_v11, colvec_v12, colvec_v13, colvec_v14, colvec_v15, colvec_v16, V_main_arg3 m c, V_main_arg5 m c,
      V_main_arg7 m c, V_main_arg9 m c, V_main_arg11 m c]
    rfl

/-! ## The run -/

/-- After the run every argument array is as launched: an array some window stages is never written back and ends as the region
    found it, an array no window stages ends as the host lines after the region leave it, and no host line writes an argument. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  ⟨(((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    ((h c).1 3).trans (((dats m 0 c).arrAt_in 3 rfl _).trans ((A_eq m c 3).trans (V_main_arg3 m c))),
    (((h c).2 main_arg4 (Pipeline.mem_restRefs_of main_arg4 (by decide) (by decide))).trans (W_main_arg4 m (dats m) c)),
    ((h c).1 5).trans (((dats m 0 c).arrAt_in 5 rfl _).trans ((A_eq m c 5).trans (V_main_arg5 m c))),
    (((h c).2 main_arg6 (Pipeline.mem_restRefs_of main_arg6 (by decide) (by decide))).trans (W_main_arg6 m (dats m) c)),
    ((h c).1 7).trans (((dats m 0 c).arrAt_in 7 rfl _).trans ((A_eq m c 7).trans (V_main_arg7 m c))),
    (((h c).2 main_arg8 (Pipeline.mem_restRefs_of main_arg8 (by decide) (by decide))).trans (W_main_arg8 m (dats m) c)),
    ((h c).1 9).trans (((dats m 0 c).arrAt_in 9 rfl _).trans ((A_eq m c 9).trans (V_main_arg9 m c))),
    (((h c).2 main_arg10 (Pipeline.mem_restRefs_of main_arg10 (by decide) (by decide))).trans (W_main_arg10 m (dats m) c)),
    ((h c).1 11).trans (((dats m 0 c).arrAt_in 11 rfl _).trans ((A_eq m c 11).trans (V_main_arg11 m c))),
    (((h c).2 main_arg12 (Pipeline.mem_restRefs_of main_arg12 (by decide) (by decide))).trans (W_main_arg12 m (dats m) c))⟩

/-- Every weakly fair execution of the reference's program ends with the result at the network of the launch arrays, row by
    row, and the argument arrays unchanged. -/
theorem run : θ_run defs (onTc (τ := τ) (main (F := Ideal))) ⟨m, fun _ => 0, ρ⟩ (fun r => ∀ c : Dev nD,
      r.2.mem ((c : Thread nD τ).loc main_v19) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun r h c => ⟨((h c).2 main_v19 (Pipeline.mem_restRefs_of main_v19 (by decide) (by decide))).trans (value m c),
      kept m r h c⟩) (run_main m ρ)

end Cert.ReferenceIdeal.Host

end
-- ==== Proof.lean ====
/-
  A batch of 1048576 rows of 8 features goes through a small network: a first layer that applies one scalar affine map per
  hidden unit to each feature separately (128 units, so 1024 values), its positive part, four dense layers with positive parts
  (1024 → 128 → 64 → 32 → 16) and a last dense layer (16 → 1).

  The kernel computes, for a block of 16384 batch elements on the lanes, the first layer as eight slabs  max (w1 · x_k + b1) 0
  stacked into a [1024, 16384] matrix, then the dense layers as matrix products; its result is a [64, 1, 16384] array flattened.
  The reference computes, for a block of 4096 batch elements, the first layer as ONE matrix product with the Kronecker product of
  the 8×8 identity and w1, the bias b1 repeated eight times, then the same dense layers; its result is a [1, 1048576] array
  flattened.

  At the ideal values both are the same function of the thirteen argument arrays, row by row (`Cert.Mlp.result`):
    * a change of float format is the identity, so the kernel's narrowed first-layer values and narrowed second-layer weights
      are the values and the weights;
    * every layer acts on each batch column by itself (Proof/LibDenseColumn.lean), so the tilings 64 × 16384 and 256 × 4096 do
      not matter (Proof/KBody.lean, Proof/RBody.lean: a block's lane; Proof/KValue.lean, Proof/RValue.lean: the blocks tile the
      output array; Proof/KHost.lean, Proof/RHost.lean: the host's transposes and reshapes around the region);
    * in the reference's first product, row k·128 + h has the single non-zero term  w1 h · x k : the other seven are
      0 · x k' = 0, also when x k' is infinite, so no finiteness of the inputs is used (Proof/Mlp.lean `lift1_of_kron`).
  The three frames are the generated ones; the ideal pass rewrote nothing, so the kernel's idealization is its own text.
-/
import proofs.«161506_g2000504593560428_pallasbulk_1050_27_alg».proof.Defs
import proofs.«161506_g2000504593560428_pallasbulk_1050_27_alg».proof.Proof.Gen.Kernel
import proofs.«161506_g2000504593560428_pallasbulk_1050_27_alg».proof.Proof.Gen.Kernel.Skeleton
import proofs.«161506_g2000504593560428_pallasbulk_1050_27_alg».proof.Proof.Gen.Kernel.Launch
import proofs.«161506_g2000504593560428_pallasbulk_1050_27_alg».proof.Proof.Gen.Kernel.Points
import proofs.«161506_g2000504593560428_pallasbulk_1050_27_alg».proof.Proof.Gen.Kernel.Frame
import proofs.«161506_g2000504593560428_pallasbulk_1050_27_alg».proof.Proof.Gen.KernelIdeal
import proofs.«161506_g2000504593560428_pallasbulk_1050_27_alg».proof.Proof.Gen.KernelIdeal.Skeleton
import proofs.«161506_g2000504593560428_pallasbulk_1050_27_alg».proof.Proof.Gen.KernelIdeal.Launch
import proofs.«161506_g2000504593560428_pallasbulk_1050_27_alg».proof.Proof.Gen.KernelIdeal.Points
import proofs.«161506_g2000504593560428_pallasbulk_1050_27_alg».proof.Proof.Gen.KernelIdeal.Frame
import proofs.«161506_g2000504593560428_pallasbulk_1050_27_alg».proof.Proof.Gen.ReferenceIdeal
import proofs.«161506_g2000504593560428_pallasbulk_1050_27_alg».proof.Proof.Gen.ReferenceIdeal.Skeleton
import proofs.«161506_g2000504593560428_pallasbulk_1050_27_alg».proof.Proof.Gen.ReferenceIdeal.Launch
import proofs.«161506_g2000504593560428_pallasbulk_1050_27_alg».proof.Proof.Gen.ReferenceIdeal.Points
import proofs.«161506_g2000504593560428_pallasbulk_1050_27_alg».proof.Proof.Gen.ReferenceIdeal.Frame
import proofs.«161506_g2000504593560428_pallasbulk_1050_27_alg».proof.Proof.Gen.Pre_finite_inputs
import proofs.«161506_g2000504593560428_pallasbulk_1050_27_alg».proof.Proof.KHost
import proofs.«161506_g2000504593560428_pallasbulk_1050_27_alg».proof.Proof.RHost
import Idealize.ShloMosaic.Adequacy
import Idealize.ShloMosaic.Init

noncomputable section

namespace Cert.Proof

open Idealize.ShloMosaic Idealize.SL.Sem

/-- Both idealized programs, from memories agreeing on the arguments, end with the result array at the network of the launch
    arrays, row by row: one function on both sides. -/
theorem algebraic : Cert.algebraic_KernelIdeal_ReferenceIdeal := by
  intro m ρ m' ρ' _ hagree
  refine ⟨fun c => Cert.Mlp.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.Host.run m ρ, ?_⟩
  refine (θ_run Cert.ReferenceIdeal.defs _ _).mono (fun r h c => ⟨(h c).1.trans ?_, (h c).2⟩) (Cert.ReferenceIdeal.Host.run m' ρ')
  obtain ⟨a0, a1, a2, a3, a4, a5, a6, a7, a8, a9, a10, a11, a12⟩ := hagree c
  rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
